-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S72x128 : Shape := ⟨2, ![72, 128]⟩
abbrev S128 : Shape := ⟨1, ![128]⟩
abbrev S_ : Shape := ⟨0, ![]⟩

class Facts : Prop where
  bcast_S_S72x128 : S_.BroadcastsInDim S72x128 (![] : Fin 0 → Fin S72x128.rank)
  reducesTo_S72x128_S_d0_1 : S72x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : IVec S1x1024 32) (main_arg1 : IVec S1x1024 32) (main_arg2 : IVec S1x1024 32) (main_arg3 : IVec S1x1024 32) (main_arg4 : FVec F S72x128 .f32) (main_arg5 : FVec F S128 .f32) : IVec S_ 1 :=
  let main_v0 : FVec F S72x128 .f32 := Host.absf main_arg4
  let main_cst : FVec F S_ .f32 := constant S_ .f32 0x7F800000#32
  let main_v1 : FVec F S72x128 .f32 := broadcastInDim S72x128 ![] bcast_S_S72x128 main_cst
  let main_v2 : IVec S72x128 1 := cmpf .olt main_v0 main_v1
  let main_c : IVec S_ 1 := constantI S_ 1 1#1
  let main_v3 : IVec S_ 1 := (fun x v => Host.reduce IntOp.andi x v reducesTo_S72x128_S_d0_1 h_S_) main_v2 main_c
  let main_v4 : FVec F S128 .f32 := Host.absf main_arg5
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S1x1024 : Shape := ⟨2, ![1, 1024]⟩
abbrev S72x128 : Shape := ⟨2, ![72, 128]⟩
abbrev S128 : Shape := ⟨1, ![128]⟩
abbrev S1024 : Shape := ⟨1, ![1024]⟩
abbrev S1024x1 : Shape := ⟨2, ![1024, 1]⟩
abbrev S65x128 : Shape := ⟨2, ![65, 128]⟩
abbrev S1x128 : Shape := ⟨2, ![1, 128]⟩
abbrev S6x128 : Shape := ⟨2, ![6, 128]⟩
abbrev S1x1024x1024x128 : Shape := ⟨4, ![1, 1024, 1024, 128]⟩
abbrev S8x1 : Shape := ⟨2, ![8, 1]⟩
abbrev S1x8x1024x128 : Shape := ⟨4, ![1, 8, 1024, 128]⟩
abbrev S8x1024 : Shape := ⟨2, ![8, 1024]⟩
abbrev S8x1024x65 : Shape := ⟨3, ![8, 1024, 65]⟩
abbrev S8x1024x1 : Shape := ⟨3, ![8, 1024, 1]⟩
abbrev S8x1024x6 : Shape := ⟨3, ![8, 1024, 6]⟩
abbrev S8192x65 : Shape := ⟨2, ![8192, 65]⟩
abbrev S8192x6 : Shape := ⟨2, ![8192, 6]⟩
abbrev S8192x128 : Shape := ⟨2, ![8192, 128]⟩
abbrev S8x1024x128 : Shape := ⟨3, ![8, 1024, 128]⟩
abbrev S1x1x128 : Shape := ⟨3, ![1, 1, 128]⟩

abbrev nBuf : Space → Nat
  | .hbm => 27
  | .vmem => 18
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S72x128, .f32⟩
  | .hbm, ⟨5, _⟩ => ⟨S128, .f32⟩
  | .hbm, ⟨6, _⟩ => ⟨S1024, .i32⟩
  | .hbm, ⟨7, _⟩ => ⟨S1024x1, .i32⟩
  | .hbm, ⟨8, _⟩ => ⟨S1024, .i32⟩
  | .hbm, ⟨9, _⟩ => ⟨S1x1024, .i32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S1x1024, .i32⟩
  | .hbm, ⟨14, _⟩ => ⟨S1024, .i32⟩
  | .hbm, ⟨15, _⟩ => ⟨S1024x1, .i32⟩
  | .hbm, ⟨16, _⟩ => ⟨S1024, .i32⟩
  | .hbm, ⟨17, _⟩ => ⟨S1x1024, .i32⟩
  | .hbm, ⟨18, _⟩ => ⟨S1024, .i32⟩
  | .hbm, ⟨19, _⟩ => ⟨S1024x1, .i32⟩
  | .hbm, ⟨20, _⟩ => ⟨S1024, .i32⟩
  | .hbm, ⟨21, _⟩ => ⟨S1x1024, .i32⟩
  | .hbm, ⟨22, _⟩ => ⟨S65x128, .f32⟩
  | .hbm, ⟨23, _⟩ => ⟨S1x128, .f32⟩
  | .hbm, ⟨24, _⟩ => ⟨S6x128, .f32⟩
  | .hbm, ⟨25, _⟩ => ⟨S1x128, .f32⟩
  | .hbm, ⟨26, _⟩ => ⟨S1x1024x1024x128, .f32⟩
  | .local _ .vmem, ⟨0, _⟩ => ⟨S8x1, .i32⟩
  | .local _ .vmem, ⟨1, _⟩ => ⟨S8x1, .i32⟩
  | .local _ .vmem, ⟨2, _⟩ => ⟨S1x1024, .i32⟩
  | .local _ .vmem, ⟨3, _⟩ => ⟨S8x1, .i32⟩
  | .local _ .vmem, ⟨4, _⟩ => ⟨S8x1, .i32⟩
  | .local _ .vmem, ⟨5, _⟩ => ⟨S1x1024, .i32⟩
  | .local _ .vmem, ⟨6, _⟩ => ⟨S8x1, .i32⟩
  | .local _ .vmem, ⟨7, _⟩ => ⟨S8x1, .i32⟩
  | .local _ .vmem, ⟨8, _⟩ => ⟨S1x1024, .i32⟩
  | .local _ .vmem, ⟨9, _⟩ => ⟨S8x1, .i32⟩
  | .local _ .vmem, ⟨10, _⟩ => ⟨S8x1, .i32⟩
  | .local _ .vmem, ⟨11, _⟩ => ⟨S1x1024, .i32⟩
  | .local _ .vmem, ⟨12, _⟩ => ⟨S65x128, .f32⟩
  | .local _ .vmem, ⟨13, _⟩ => ⟨S1x128, .f32⟩
  | .local _ .vmem, ⟨14, _⟩ => ⟨S6x128, .f32⟩
  | .local _ .vmem, ⟨15, _⟩ => ⟨S1x128, .f32⟩
  | .local _ .vmem, ⟨16, _⟩ => ⟨S1x8x1024x128, .f32⟩
  | .local _ .vmem, ⟨17, _⟩ => ⟨S1x8x1024x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S65x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1x1024_S1024 : S1x1024.ShapeCasts S1024
  shapeCasts_S1024_S1024x1 : S1024.ShapeCasts S1024x1
  shapeCasts_S1024_S1x1024 : S1024.ShapeCasts S1x1024
  slices_S72x128_S65x128_0_0 : S72x128.Slices ![0, 0] S65x128
  slices_S72x128_S1x128_65_0 : S72x128.Slices ![65, 0] S1x128
  slices_S72x128_S6x128_66_0 : S72x128.Slices ![66, 0] S6x128
  shapeCasts_S128_S1x128 : S128.ShapeCasts S1x128
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S8x1_S8x1024 : S8x1.Broadcasts S8x1024
  broadcasts_S1x1024_S8x1024 : S1x1024.Broadcasts S8x1024
  iota_S8x1024x65_d2_w32 : S8x1024x65.Iotas .tc 32 [2]
  shapeCasts_S8x1024_S8x1024x1 : S8x1024.ShapeCasts S8x1024x1
  broadcasts_S8x1024x1_S8x1024x65 : S8x1024x1.Broadcasts S8x1024x65
  natLt_1_32 : 1 < 32
  bitsLt_bf16_f32 : FTy.bits .bf16 < FTy.bits .f32
  iota_S8x1024x6_d2_w32 : S8x1024x6.Iotas .tc 32 [2]
  broadcasts_S8x1024x1_S8x1024x6 : S8x1024x1.Broadcasts S8x1024x6
  shapeCasts_S8x1024x65_S8192x65 : S8x1024x65.ShapeCasts S8192x65
  shapeCasts_S8x1024x6_S8192x6 : S8x1024x6.ShapeCasts S8192x6
  inb_S65x128_S65x128_0_0 : ∀ a, (![0, 0] : Fin 2 → Nat) a + S65x128.size a ≤ S65x128.size a
  h_S65x128 : 0 < S65x128.numel
  shapeCasts_S65x128_S65x128 : S65x128.ShapeCasts S65x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  shapeCasts_S8192x128_S8x1024x128 : S8192x128.ShapeCasts S8x1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S8x1024x1_S8x1024x128 : S8x1024x1.Broadcasts S8x1024x128
  broadcasts_S1x1x128_S8x1024x128 : S1x1x128.Broadcasts S8x1024x128
  shapeCasts_S8x1024x128_S1x8x1024x128 : S8x1024x128.ShapeCasts S1x8x1024x128
  inb_S1x8x1024x128_S1x8x1024x128_0_0_0_0 : ∀ a, (![0, 0, 0, 0] : Fin 4 → Nat) a + S1x8x1024x128.size a ≤ S1x8x1024x128.size a
  h_S1x8x1024x128 : 0 < S1x8x1024x128.numel
  dot_S8192x65_S65x128_S8192x128_1_0_0_1_n_n_wf : DotDims.WF S8192x65 S65x128 S8192x128 [1] [0] [0] [1] [] []
  dot_S8192x6_S6x128_S8192x128_1_0_0_1_n_n_wf : DotDims.WF S8192x6 S6x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1.size a ≤ S1024x1.size a
  hwx0_0 : ∀ i : grid0.Coords, EltTy.bits .i32 = 32 ∨ (Rect.block (s := S1024x1) S8x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .i32 = 32 ∨ (Rect.block (s := S1x1024) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S1024x1.size a
  hwx0_2 : ∀ i : grid0.Coords, EltTy.bits .i32 = 32 ∨ (Rect.block (s := S1024x1) S8x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .i32 = 32 ∨ (Rect.block (s := S1x1024) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S1024x1.size a
  hwx0_4 : ∀ i : grid0.Coords, EltTy.bits .i32 = 32 ∨ (Rect.block (s := S1024x1) S8x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .i32 = 32 ∨ (Rect.block (s := S1x1024) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S1024x1.size a
  hwx0_6 : ∀ i : grid0.Coords, EltTy.bits .i32 = 32 ∨ (Rect.block (s := S1024x1) S8x1.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .i32 = 32 ∨ (Rect.block (s := S1x1024) S1x1024.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S65x128.size a ≤ S65x128.size a
  hwx0_8 : ∀ i : grid0.Coords, EltTy.bits .f32 = 32 ∨ (Rect.block (s := S65x128) S65x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6x128.size a ≤ S6x128.size a
  hwx0_10 : ∀ i : grid0.Coords, EltTy.bits .f32 = 32 ∨ (Rect.block (s := S6x128) S6x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x8x1024x128.size a ≤ S1x1024x1024x128.size a
  hwx0_12 : ∀ i : grid0.Coords, EltTy.bits .f32 = 32 ∨ (Rect.block (s := S1x1024x1024x128) S1x8x1024x128.size (cc0_transform_12 i) (hinb0_12 i)).WholeWords (EltTy.packing .f32)

variable [Facts₀]

def dot_S8192x65_S65x128_S8192x128_1_0_0_1_n_n : DotDims S8192x65 S65x128 S8192x128 where
  lhsContracting := [1]
  rhsContracting := [0]
  lhsNonContracting := [0]
  rhsNonContracting := [1]
  lhsBatch := []
  rhsBatch := []
  wf := dot_S8192x65_S65x128_S8192x128_1_0_0_1_n_n_wf
def dot_S8192x6_S6x128_S8192x128_1_0_0_1_n_n : DotDims S8192x6 S6x128 S8192x128 where
  lhsContracting := [1]
  rhsContracting := [0]
  lhsNonContracting := [0]
  rhsNonContracting := [1]
  lhsBatch := []
  rhsBatch := []
  wf := dot_S8192x6_S6x128_S8192x128_1_0_0_1_n_n_wf

abbrev win0_0 : Pipeline.Window sig grid0 :=
  Pipeline.Window.ofSpec (Memref.whole main_v1) S8x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S8x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S65x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S6x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x8x1024x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1x1024 : Shape := ⟨2, ![1, 1024]⟩
abbrev S72x128 : Shape := ⟨2, ![72, 128]⟩
abbrev S128 : Shape := ⟨1, ![128]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S1x1024x1024x1 : Shape := ⟨4, ![1, 1024, 1024, 1]⟩
abbrev S1x1x1x65 : Shape := ⟨4, ![1, 1, 1, 65]⟩
abbrev S1x1024x1024x65 : Shape := ⟨4, ![1, 1024, 1024, 65]⟩
abbrev S1x1x1x6 : Shape := ⟨4, ![1, 1, 1, 6]⟩
abbrev S1x1024x1024x6 : Shape := ⟨4, ![1, 1024, 1024, 6]⟩
abbrev S1x1024x1024x72 : Shape := ⟨4, ![1, 1024, 1024, 72]⟩
abbrev S1x1024x1024x128 : Shape := ⟨4, ![1, 1024, 1024, 128]⟩
abbrev S1x1x1x128 : Shape := ⟨4, ![1, 1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S72x128, .f32⟩
  | .hbm, ⟨5, _⟩ => ⟨S128, .f32⟩
  | .hbm, ⟨6, _⟩ => ⟨S1x1024x1, .i32⟩
  | .hbm, ⟨7, _⟩ => ⟨S1x1x1024, .i32⟩
  | .hbm, ⟨8, _⟩ => ⟨S1x1024x1024, .i32⟩
  | .hbm, ⟨9, _⟩ => ⟨S1x1024x1024, .i32⟩
  | .hbm, ⟨10, _⟩ => ⟨S1x1024x1024, .i1⟩
  | .hbm, ⟨11, _⟩ => ⟨S1x1024x1, .i32⟩
  | .hbm, ⟨12, _⟩ => ⟨S1x1x1024, .i32⟩
  | .hbm, ⟨13, _⟩ => ⟨S1x1024x1024, .i32⟩
  | .hbm, ⟨14, _⟩ => ⟨S1x1024x1024, .i32⟩
  | .hbm, ⟨15, _⟩ => ⟨S1x1024x1024, .i32⟩
  | .hbm, ⟨16, _⟩ => ⟨S_, .i32⟩
  | .hbm, ⟨17, _⟩ => ⟨S1x1024x1024, .i32⟩
  | .hbm, ⟨18, _⟩ => ⟨S1x1024x1024, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x1024x1024, .i32⟩
  | .hbm, ⟨23, _⟩ => ⟨S1x1024x1024, .i32⟩
  | .hbm, ⟨24, _⟩ => ⟨S_, .i32⟩
  | .hbm, ⟨25, _⟩ => ⟨S1x1024x1024, .i32⟩
  | .hbm, ⟨26, _⟩ => ⟨S1x1024x1024, .i32⟩
  | .hbm, ⟨27, _⟩ => ⟨S_, .i32⟩
  | .hbm, ⟨28, _⟩ => ⟨S_, .i32⟩
  | .hbm, ⟨29, _⟩ => ⟨S1x1024x1024, .i32⟩
  | .hbm, ⟨30, _⟩ => ⟨S1x1024x1024, .i32⟩
  | .hbm, ⟨31, _⟩ => ⟨S1x1024x1024x1, .i32⟩
  | .hbm, ⟨32, _⟩ => ⟨S1x1x1x65, .i32⟩
  | .hbm, ⟨33, _⟩ => ⟨S1x1024x1024x65, .i32⟩
  | .hbm, ⟨34, _⟩ => ⟨S1x1024x1024x65, .i32⟩
  | .hbm, ⟨35, _⟩ => ⟨S1x1024x1024x65, .i1⟩
  | .hbm, ⟨36, _⟩ => ⟨S1x1024x1024x65, .f32⟩
  | .hbm, ⟨37, _⟩ => ⟨S1x1024x1, .i32⟩
  | .hbm, ⟨38, _⟩ => ⟨S1x1x1024, .i32⟩
  | .hbm, ⟨39, _⟩ => ⟨S1x1024x1024, .i32⟩
  | .hbm, ⟨40, _⟩ => ⟨S1x1024x1024, .i32⟩
  | .hbm, ⟨41, _⟩ => ⟨S1x1024x1024, .i1⟩
  | .hbm, ⟨42, _⟩ => ⟨S1x1024x1024, .f32⟩
  | .hbm, ⟨43, _⟩ => ⟨S1x1024x1024x1, .f32⟩
  | .hbm, ⟨44, _⟩ => ⟨S1x1024x1, .i32⟩
  | .hbm, ⟨45, _⟩ => ⟨S1x1x1024, .i32⟩
  | .hbm, ⟨46, _⟩ => ⟨S1x1024x1024, .i32⟩
  | .hbm, ⟨47, _⟩ => ⟨S1x1024x1024, .i32⟩
  | .hbm, ⟨48, _⟩ => ⟨S1x1024x1024, .i32⟩
  | .hbm, ⟨49, _⟩ => ⟨S_, .i32⟩
  | .hbm, ⟨50, _⟩ => ⟨S1x1024x1024, .i32⟩
  | .hbm, ⟨51, _⟩ => ⟨S1x1024x1024, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x1024x1024, .i32⟩
  | .hbm, ⟨56, _⟩ => ⟨S1x1024x1024, .i32⟩
  | .hbm, ⟨57, _⟩ => ⟨S_, .i32⟩
  | .hbm, ⟨58, _⟩ => ⟨S1x1024x1024, .i32⟩
  | .hbm, ⟨59, _⟩ => ⟨S1x1024x1024, .i32⟩
  | .hbm, ⟨60, _⟩ => ⟨S_, .i32⟩
  | .hbm, ⟨61, _⟩ => ⟨S_, .i32⟩
  | .hbm, ⟨62, _⟩ => ⟨S1x1024x1024, .i32⟩
  | .hbm, ⟨63, _⟩ => ⟨S1x1024x1024, .i32⟩
  | .hbm, ⟨64, _⟩ => ⟨S1x1024x1024x1, .i32⟩
  | .hbm, ⟨65, _⟩ => ⟨S1x1x1x6, .i32⟩
  | .hbm, ⟨66, _⟩ => ⟨S1x1024x1024x6, .i32⟩
  | .hbm, ⟨67, _⟩ => ⟨S1x1024x1024x6, .i32⟩
  | .hbm, ⟨68, _⟩ => ⟨S1x1024x1024x6, .i1⟩
  | .hbm, ⟨69, _⟩ => ⟨S1x1024x1024x6, .f32⟩
  | .hbm, ⟨70, _⟩ => ⟨S1x1024x1024x72, .f32⟩
  | .hbm, ⟨71, _⟩ => ⟨S1x1024x1024x128, .f32⟩
  | .hbm, ⟨72, _⟩ => ⟨S1x1x1x128, .f32⟩
  | .hbm, ⟨73, _⟩ => ⟨S1x1024x1024x128, .f32⟩
  | .hbm, ⟨74, _⟩ => ⟨S1x1024x1024x128, .f32⟩
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_c_5 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v29 : Ref sig .tc := ⟨.hbm, 59, rfl⟩
abbrev main_c_6 : Ref sig .tc := ⟨.hbm, 60, rfl⟩
abbrev main_call4_v0 : Ref sig .tc := ⟨.hbm, 61, rfl⟩
abbrev main_call4_v1 : Ref sig .tc := ⟨.hbm, 62, rfl⟩
abbrev main_v30 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  bcast_S1x1024x1024_S1x1024x1024x1_0_1_2 : S1x1024x1024.BroadcastsInDim S1x1024x1024x1 (![0, 1, 2] : Fin 3 → Fin S1x1024x1024x1.rank)
  bcast_S1x1024x1024x1_S1x1024x1024x65_0_1_2_3 : S1x1024x1024x1.BroadcastsInDim S1x1024x1024x65 (![0, 1, 2, 3] : Fin 4 → Fin S1x1024x1024x65.rank)
  bcast_S1x1x1x65_S1x1024x1024x65_0_1_2_3 : S1x1x1x65.BroadcastsInDim S1x1024x1024x65 (![0, 1, 2, 3] : Fin 4 → Fin S1x1024x1024x65.rank)
  bcast_S1x1024x1024x1_S1x1024x1024x6_0_1_2_3 : S1x1024x1024x1.BroadcastsInDim S1x1024x1024x6 (![0, 1, 2, 3] : Fin 4 → Fin S1x1024x1024x6.rank)
  bcast_S1x1x1x6_S1x1024x1024x6_0_1_2_3 : S1x1x1x6.BroadcastsInDim S1x1024x1024x6 (![0, 1, 2, 3] : Fin 4 → Fin S1x1024x1024x6.rank)
  concatenates_S1x1024x1024x65_S1x1024x1024x1_S1x1024x1024x6_S1x1024x1024x72_d3 : Shape.Concatenates [S1x1024x1024x65, S1x1024x1024x1, S1x1024x1024x6] S1x1024x1024x72 3
  bcast_S128_S1x1x1x128_3 : S128.BroadcastsInDim S1x1x1x128 (![3] : Fin 1 → Fin S1x1x1x128.rank)
  bcast_S1x1x1x128_S1x1024x1024x128_0_1_2_3 : S1x1x1x128.BroadcastsInDim S1x1024x1024x128 (![0, 1, 2, 3] : Fin 4 → Fin S1x1024x1024x128.rank)
  dot_S1x1024x1024x72_S72x128_S1x1024x1024x128_3_0_012_1_n_n_wf : DotDims.WF S1x1024x1024x72 S72x128 S1x1024x1024x128 [3] [0] [0, 1, 2] [1] [] []

variable [Facts₀]

def dot_S1x1024x1024x72_S72x128_S1x1024x1024x128_3_0_012_1_n_n : DotDims S1x1024x1024x72 S72x128 S1x1024x1024x128 where
  lhsContracting := [3]
  rhsContracting := [0]
  lhsNonContracting := [0, 1, 2]
  rhsNonContracting := [1]
  lhsBatch := []
  rhsBatch := []
  wf := dot_S1x1024x1024x72_S72x128_S1x1024x1024x128_3_0_012_1_n_n_wf

class Facts : Prop extends Facts₀ where

variable [Facts]
-- ==== Proof.Spec.lean ====
/-
  The relative-position encoding, entry by entry.

  For a pair of positions (i, j) the four identifier rows give two bins and one flag:
    * the offset bin: when the two chain identifiers agree, the residue offset r i - r j shifted by 32 and clamped to
      0 … 63, otherwise the extra bin 64 (65 bins);
    * the copy bin: when the two entity identifiers agree, the copy offset s i - s j shifted by 2 and clamped to
      0 … 4, otherwise the extra bin 5 (6 bins);
    * the flag that the two entity identifiers agree.
  The encoding's feature row has 72 entries: the indicator of the offset bin (65), the flag (1), the indicator of the
  copy bin (6).  Its image under the weight matrix W (72 rows) plus the bias is therefore, in column c,
      sum over 65 offset bins of [bin = k] · W k c  +  sum over 6 copy bins of [bin = k] · W (66 + k) c
        +  flag · W 65 c  +  bias c.
  This module states that value (`entryOf`, over the scalars that enter it) and the whole array `G` of it, and proves the
  one algebraic fact the comparison of the two programs needs: a sum over 72 consecutive rows is the sum over the first 65,
  the one in the middle and the last 6, in any grouping — addition of extended reals is commutative and associative,
  so no finiteness is needed.
-/
import Idealize.ShloMosaic.Lib.ValueIdx
import Idealize.ShloMosaic.PureOps.Ideal.Laws

noncomputable section

namespace Cert.RelPos

open Idealize.ShloMosaic Idealize.ShloMosaic.ValueIdx

/-- The value of a one-bit flag as an extended real: 0 or 1. -/
def ind (b : BitVec 1) : EReal := ((b.toNat : ℝ) : EReal)

/-- A flag widened to 32 bits and read as a signed integer is the flag's value. -/
theorem toInt_setWidth_one (b : BitVec 1) : ((b.setWidth 32).toInt : ℝ) = (b.toNat : ℝ) := by
  have h : ∀ b : BitVec 1, (b.setWidth 32).toInt = (b.toNat : Int) := by decide
  rw [h b]; norm_cast

/-- The offset bin of a pair: the clamped shifted residue offset when the chains agree, else bin 64. -/
def posBin (rq rk aq ak : BitVec 32) : BitVec 32 :=
  Scalar.select (IntOp.cmpi .eq aq ak)
    (IntOp.minsi 63#32 (IntOp.maxsi 0#32 (IntOp.addi (IntOp.subi rq rk) 32#32))) 64#32

/-- The copy bin of a pair: the clamped shifted copy offset when the entities agree, else bin 5. -/
def chainBin (sq sk eq ek : BitVec 32) : BitVec 32 :=
  Scalar.select (IntOp.cmpi .eq eq ek)
    (IntOp.minsi 4#32 (IntOp.maxsi 0#32 (IntOp.addi (IntOp.subi sq sk) 2#32))) 5#32

/-- One entry of the encoding from the eight identifiers of the pair, the column of the weight rows (65 offset rows,
    the entity row, 6 copy rows) and the bias entry. -/
def entryOf (rq rk aq ak sq sk eq ek : BitVec 32) (wpos : Fin 65 → EReal) (went : EReal) (wchain : Fin 6 → EReal)
    (bias : EReal) : EReal :=
  ((∑ k : Fin 65, ind (IntOp.cmpi .eq (posBin rq rk aq ak) (BitVec.ofNat 32 k.val)) * wpos k
      + ∑ k : Fin 6, ind (IntOp.cmpi .eq (chainBin sq sk eq ek) (BitVec.ofNat 32 k.val)) * wchain k)
    + ind (IntOp.cmpi .eq eq ek) * went) + bias

/-- The whole result: entry (0, i, j, c) from row i and row j of the identifiers, column c of the weights and bias. -/
def G (r a s e : (⟨2, ![1, 1024]⟩ : Shape).Idx → BitVec 32) (W : (⟨2, ![72, 128]⟩ : Shape).Idx → EReal)
    (b : (⟨1, ![128]⟩ : Shape).Idx → EReal) : (⟨4, ![1, 1024, 1024, 128]⟩ : Shape).Idx → EReal := fun y =>
  entryOf (r (ix2 0 ⟨(y 1).val, (y 1).isLt⟩)) (r (ix2 0 ⟨(y 2).val, (y 2).isLt⟩))
    (a (ix2 0 ⟨(y 1).val, (y 1).isLt⟩)) (a (ix2 0 ⟨(y 2).val, (y 2).isLt⟩))
    (s (ix2 0 ⟨(y 1).val, (y 1).isLt⟩)) (s (ix2 0 ⟨(y 2).val, (y 2).isLt⟩))
    (e (ix2 0 ⟨(y 1).val, (y 1).isLt⟩)) (e (ix2 0 ⟨(y 2).val, (y 2).isLt⟩))
    (fun k => W (ix2 ⟨k.val, Nat.lt_of_lt_of_le k.isLt (by decide)⟩ ⟨(y 3).val, (y 3).isLt⟩))
    (W (ix2 ⟨65, by decide⟩ ⟨(y 3).val, (y 3).isLt⟩))
    (fun k => W (ix2 ⟨66 + k.val, by have := k.isLt; omega⟩ ⟨(y 3).val, (y 3).isLt⟩))
    (b (ix1 ⟨(y 3).val, (y 3).isLt⟩))

/-- A sum over 72 consecutive rows splits into the first 65, row 65 and the last 6. -/
theorem sum72_split (f : Fin 72 → EReal) :
    ∑ k : Fin 72, f k
      = (∑ k : Fin 65, f ⟨k.val, Nat.lt_of_lt_of_le k.isLt (by decide)⟩
          + ∑ k : Fin 6, f ⟨66 + k.val, by have := k.isLt; omega⟩) + f ⟨65, by decide⟩ := by
  have h1 : ∑ k : Fin 72, f k
      = ∑ k : Fin 65, f (Fin.castAdd 7 k) + ∑ k : Fin 7, f (Fin.natAdd 65 k) := Fin.sum_univ_add (a := 65) (b := 7) f
  have h2 : ∑ k : Fin 7, f (Fin.natAdd 65 k)
      = f (Fin.natAdd 65 (0 : Fin 7)) + ∑ k : Fin 6, f (Fin.natAdd 65 k.succ) :=
    Fin.sum_univ_succ (n := 6) fun k : Fin 7 => f (Fin.natAdd 65 k)
  rw [h1, h2, add_assoc, add_comm (f _) _]
  refine congrArg₂ (· + ·) rfl (congrArg₂ (· + ·) (Finset.sum_congr rfl fun k _ => congrArg f (Fin.ext ?_)) rfl)
  show 65 + (k.val + 1) = 66 + k.val
  omega

end Cert.RelPos

end
-- ==== Proof.Payload.lean ====
/-
  The kernel body's arithmetic at one entry of its block.

  The body builds, for its 8 × 1024 pairs, the two bins and the flag; turns each bin into an indicator row (65 and 6
  wide); multiplies the 8192 × 65 and 8192 × 6 indicator matrices by the offset rows and the copy rows of the weights;
  adds the flag times the entity row; and adds the bias.  At entry (p, q, c) of the block a matrix product into a zero
  accumulator is the plain sum over the contracted axis, and row p · 1024 + q of an indicator matrix is the indicator
  row of pair (p, q): so the entry is `entryOf` of the pair's identifiers, column c of the weight rows and bias entry c.
  A change of float format is the identity on extended reals, and a one-bit flag widened and converted as a signed
  integer is the flag's value.
-/
import proofs.«131732_j7567732376211_1_alg».proof.Proof.Gen.KernelIdeal.Skeleton
import proofs.«131732_j7567732376211_1_alg».proof.Proof.Spec
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.ValueIdx Cert.RelPos

/-! ## The two matrix products at an entry -/

/-- Row coordinate of the left factor of the offset product: the output's row. -/
theorem lhs65_0 (i : S8192x128.Idx) (q : dot_S8192x65_S65x128_S8192x128_1_0_0_1_n_n.contr.Idx) :
    (dot_S8192x65_S65x128_S8192x128_1_0_0_1_n_n.lhsIdx i q 0).val = (i 0).val := by
  unfold DotDims.lhsIdx
  rw [dif_neg (show ¬(0 : Fin S8192x65.rank) ∈ dot_S8192x65_S65x128_S8192x128_1_0_0_1_n_n.lhsBatch by decide), dif_pos (show (0 : Fin S8192x65.rank) ∈ dot_S8192x65_S65x128_S8192x128_1_0_0_1_n_n.lhsNonContracting by decide)]
  rfl

/-- Column coordinate of the right factor of the offset product: the output's column. -/
theorem rhs65_1 (i : S8192x128.Idx) (q : dot_S8192x65_S65x128_S8192x128_1_0_0_1_n_n.contr.Idx) :
    (dot_S8192x65_S65x128_S8192x128_1_0_0_1_n_n.rhsIdx i q 1).val = (i 1).val := by
  unfold DotDims.rhsIdx
  rw [dif_neg (show ¬(1 : Fin S65x128.rank) ∈ dot_S8192x65_S65x128_S8192x128_1_0_0_1_n_n.rhsBatch by decide), dif_pos (show (1 : Fin S65x128.rank) ∈ dot_S8192x65_S65x128_S8192x128_1_0_0_1_n_n.rhsNonContracting by decide)]
  rfl

/-- The 8192 × 65 by 65 × 128 product into a zero accumulator, at (row, c): the sum over the 65 contracted positions. -/
theorem mm65_apply (A : FVec Ideal S8192x65 .bf16) (B : FVec Ideal S65x128 .bf16) (row : Fin 8192) (c : Fin 128) :
    matmul dot_S8192x65_S65x128_S8192x128_1_0_0_1_n_n none A B (constant S8192x128 .f32 0x00000000#32) (ix2 row c)
      = ∑ k : Fin 65, A (ix2 row k) * B (ix2 k c) := by
  show FloatOps.matmul dot_S8192x65_S65x128_S8192x128_1_0_0_1_n_n none A B (constant S8192x128 .f32 0x00000000#32) (ix2 row c) = _
  rw [Ideal.matmul_constant_zero_apply, ← Equiv.sum_comp (contrEquiv1 dot_S8192x65_S65x128_S8192x128_1_0_0_1_n_n 65 rfl rfl).symm]
  refine Finset.sum_congr rfl fun k _ => ?_
  have hk := contrEquiv1_symm_val dot_S8192x65_S65x128_S8192x128_1_0_0_1_n_n 65 rfl rfl k
  have el : dot_S8192x65_S65x128_S8192x128_1_0_0_1_n_n.lhsIdx (ix2 row c) ((contrEquiv1 dot_S8192x65_S65x128_S8192x128_1_0_0_1_n_n 65 rfl rfl).symm k) = ix2 row k := funext fun a => Fin.ext (by
    match a with
    | ⟨0, _⟩ => exact lhs65_0 _ _
    | ⟨1, _⟩ => exact (dot_S8192x65_S65x128_S8192x128_1_0_0_1_n_n.lhsIdx_val_of_single rfl _ _).trans hk)
  have er : dot_S8192x65_S65x128_S8192x128_1_0_0_1_n_n.rhsIdx (ix2 row c) ((contrEquiv1 dot_S8192x65_S65x128_S8192x128_1_0_0_1_n_n 65 rfl rfl).symm k) = ix2 k c := funext fun a => Fin.ext (by
    match a with
    | ⟨0, _⟩ => exact (dot_S8192x65_S65x128_S8192x128_1_0_0_1_n_n.rhsIdx_val_of_single rfl _ _).trans hk
    | ⟨1, _⟩ => exact rhs65_1 _ _)
  rw [el, er]

/-- Row coordinate of the left factor of the copy product: the output's row. -/
theorem lhs6_0 (i : S8192x128.Idx) (q : dot_S8192x6_S6x128_S8192x128_1_0_0_1_n_n.contr.Idx) :
    (dot_S8192x6_S6x128_S8192x128_1_0_0_1_n_n.lhsIdx i q 0).val = (i 0).val := by
  unfold DotDims.lhsIdx
  rw [dif_neg (show ¬(0 : Fin S8192x6.rank) ∈ dot_S8192x6_S6x128_S8192x128_1_0_0_1_n_n.lhsBatch by decide), dif_pos (show (0 : Fin S8192x6.rank) ∈ dot_S8192x6_S6x128_S8192x128_1_0_0_1_n_n.lhsNonContracting by decide)]
  rfl

/-- Column coordinate of the right factor of the copy product: the output's column. -/
theorem rhs6_1 (i : S8192x128.Idx) (q : dot_S8192x6_S6x128_S8192x128_1_0_0_1_n_n.contr.Idx) :
    (dot_S8192x6_S6x128_S8192x128_1_0_0_1_n_n.rhsIdx i q 1).val = (i 1).val := by
  unfold DotDims.rhsIdx
  rw [dif_neg (show ¬(1 : Fin S6x128.rank) ∈ dot_S8192x6_S6x128_S8192x128_1_0_0_1_n_n.rhsBatch by decide), dif_pos (show (1 : Fin S6x128.rank) ∈ dot_S8192x6_S6x128_S8192x128_1_0_0_1_n_n.rhsNonContracting by decide)]
  rfl

/-- The 8192 × 6 by 6 × 128 product into a zero accumulator, at (row, c): the sum over the 6 contracted positions. -/
theorem mm6_apply (A : FVec Ideal S8192x6 .bf16) (B : FVec Ideal S6x128 .bf16) (row : Fin 8192) (c : Fin 128) :
    matmul dot_S8192x6_S6x128_S8192x128_1_0_0_1_n_n none A B (constant S8192x128 .f32 0x00000000#32) (ix2 row c)
      = ∑ k : Fin 6, A (ix2 row k) * B (ix2 k c) := by
  show FloatOps.matmul dot_S8192x6_S6x128_S8192x128_1_0_0_1_n_n none A B (constant S8192x128 .f32 0x00000000#32) (ix2 row c) = _
  rw [Ideal.matmul_constant_zero_apply, ← Equiv.sum_comp (contrEquiv1 dot_S8192x6_S6x128_S8192x128_1_0_0_1_n_n 6 rfl rfl).symm]
  refine Finset.sum_congr rfl fun k _ => ?_
  have hk := contrEquiv1_symm_val dot_S8192x6_S6x128_S8192x128_1_0_0_1_n_n 6 rfl rfl k
  have el : dot_S8192x6_S6x128_S8192x128_1_0_0_1_n_n.lhsIdx (ix2 row c) ((contrEquiv1 dot_S8192x6_S6x128_S8192x128_1_0_0_1_n_n 6 rfl rfl).symm k) = ix2 row k := funext fun a => Fin.ext (by
    match a with
    | ⟨0, _⟩ => exact lhs6_0 _ _
    | ⟨1, _⟩ => exact (dot_S8192x6_S6x128_S8192x128_1_0_0_1_n_n.lhsIdx_val_of_single rfl _ _).trans hk)
  have er : dot_S8192x6_S6x128_S8192x128_1_0_0_1_n_n.rhsIdx (ix2 row c) ((contrEquiv1 dot_S8192x6_S6x128_S8192x128_1_0_0_1_n_n 6 rfl rfl).symm k) = ix2 k c := funext fun a => Fin.ext (by
    match a with
    | ⟨0, _⟩ => exact (dot_S8192x6_S6x128_S8192x128_1_0_0_1_n_n.rhsIdx_val_of_single rfl _ _).trans hk
    | ⟨1, _⟩ => exact rhs6_1 _ _)
  rw [el, er]

/-! ## The indicator matrices at an entry -/

/-- Row p · 1024 + q, column k of the 8192 × 65 indicator matrix: whether the bin of pair (p, q) is k. -/
theorem hot65_apply (v : IVec S8x1024 32) (p : Fin 8) (q : Fin 1024) (k : Fin 65) (row : Fin 8192)
    (hrow : row.val = p.val * 1024 + q.val) :
    (shapeCast S8192x65 (truncf (F := Ideal) .bf16 (sitofp .f32 (extui 32 (cmpi .eq
        (broadcastTo S8x1024x65 (shapeCast S8x1024x1 v shapeCasts_S8x1024_S8x1024x1) broadcasts_S8x1024x1_S8x1024x65)
        (iota .tc S8x1024x65 32 [2] iota_S8x1024x65_d2_w32)) natLt_1_32)) bitsLt_bf16_f32)
      shapeCasts_S8x1024x65_S8192x65) (ix2 row k)
      = ind (IntOp.cmpi .eq (v (ix2 p q)) (BitVec.ofNat 32 k.val)) := by
  refine (shapeCast_apply _ _ (ix2 row k) (ix3 p q k) ?_).trans ?_
  · rw [Shape.rowMajor_val_three, Shape.rowMajor_val_two]
    show (p.val * 1024 + q.val) * 65 + k.val = row.val * 65 + k.val
    rw [hrow]
  · show ((((IntOp.cmpi .eq (broadcastTo S8x1024x65 (shapeCast S8x1024x1 v shapeCasts_S8x1024_S8x1024x1) broadcasts_S8x1024x1_S8x1024x65 (ix3 p q k))
        (iota .tc S8x1024x65 32 [2] iota_S8x1024x65_d2_w32 (ix3 p q k))).setWidth 32).toInt : ℝ) : EReal) = _
    rw [toInt_setWidth_one, iota_single_apply,
      broadcastTo_apply _ broadcasts_S8x1024x1_S8x1024x65 (ix3 p q k) (ix3 p q 0) (fun a => by
        match a with
        | ⟨0, _⟩ => show p.val = if (8 : Nat) = 1 then 0 else p.val; rw [if_neg (by decide)]
        | ⟨1, _⟩ => show q.val = if (1024 : Nat) = 1 then 0 else q.val; rw [if_neg (by decide)]
        | ⟨2, _⟩ => show 0 = if (1 : Nat) = 1 then 0 else k.val; rw [if_pos rfl]),
      shapeCast_apply v shapeCasts_S8x1024_S8x1024x1 (ix3 p q 0) (ix2 p q) (by
        rw [Shape.rowMajor_val_three, Shape.rowMajor_val_two]
        show p.val * 1024 + q.val = (p.val * 1024 + q.val) * 1 + 0
        omega)]
    rfl

/-- Row p · 1024 + q, column k of the 8192 × 6 indicator matrix: whether the bin of pair (p, q) is k. -/
theorem hot6_apply (v : IVec S8x1024 32) (p : Fin 8) (q : Fin 1024) (k : Fin 6) (row : Fin 8192)
    (hrow : row.val = p.val * 1024 + q.val) :
    (shapeCast S8192x6 (truncf (F := Ideal) .bf16 (sitofp .f32 (extui 32 (cmpi .eq
        (broadcastTo S8x1024x6 (shapeCast S8x1024x1 v shapeCasts_S8x1024_S8x1024x1) broadcasts_S8x1024x1_S8x1024x6)
        (iota .tc S8x1024x6 32 [2] iota_S8x1024x6_d2_w32)) natLt_1_32)) bitsLt_bf16_f32)
      shapeCasts_S8x1024x6_S8192x6) (ix2 row k)
      = ind (IntOp.cmpi .eq (v (ix2 p q)) (BitVec.ofNat 32 k.val)) := by
  refine (shapeCast_apply _ _ (ix2 row k) (ix3 p q k) ?_).trans ?_
  · rw [Shape.rowMajor_val_three, Shape.rowMajor_val_two]
    show (p.val * 1024 + q.val) * 6 + k.val = row.val * 6 + k.val
    rw [hrow]
  · show ((((IntOp.cmpi .eq (broadcastTo S8x1024x6 (shapeCast S8x1024x1 v shapeCasts_S8x1024_S8x1024x1) broadcasts_S8x1024x1_S8x1024x6 (ix3 p q k))
        (iota .tc S8x1024x6 32 [2] iota_S8x1024x6_d2_w32 (ix3 p q k))).setWidth 32).toInt : ℝ) : EReal) = _
    rw [toInt_setWidth_one, iota_single_apply,
      broadcastTo_apply _ broadcasts_S8x1024x1_S8x1024x6 (ix3 p q k) (ix3 p q 0) (fun a => by
        match a with
        | ⟨0, _⟩ => show p.val = if (8 : Nat) = 1 then 0 else p.val; rw [if_neg (by decide)]
        | ⟨1, _⟩ => show q.val = if (1024 : Nat) = 1 then 0 else q.val; rw [if_neg (by decide)]
        | ⟨2, _⟩ => show 0 = if (1 : Nat) = 1 then 0 else k.val; rw [if_pos rfl]),
      shapeCast_apply v shapeCasts_S8x1024_S8x1024x1 (ix3 p q 0) (ix2 p q) (by
        rw [Shape.rowMajor_val_three, Shape.rowMajor_val_two]
        show p.val * 1024 + q.val = (p.val * 1024 + q.val) * 1 + 0
        omega)]
    rfl

end Cert.KernelIdeal.Bridge

end
-- ==== Proof.Body.lean ====
/-
  What the kernel body leaves in its output block, entry by entry.

  The body loads its twelve input blocks whole and stores one value over the whole output block, so the block after
  the body is that value.  Its entry (0, p, q, c) is `entryOf` of: rows p of the four 8 × 1 identifier columns and
  entries q of the four 1 × 1024 identifier rows (a column broadcast along a row and a row broadcast along a column
  meet at (p, q)), column c of the three weight blocks, and entry c of the bias block.
-/
import proofs.«131732_j7567732376211_1_alg».proof.Proof.Gen.KernelIdeal.Frame
import proofs.«131732_j7567732376211_1_alg».proof.Proof.Payload

noncomputable section

namespace Cert.KernelIdeal.Bridge

open Cert.KernelIdeal Cert.KernelIdeal.Gen Idealize.ShloMosaic Idealize.ShloMosaic.ValueIdx Cert.RelPos

/-! ## Columns and rows broadcast over the 8 × 1024 pairs -/

/-- An 8 × 1 column broadcast along the rows, at (p, q): its entry p. -/
theorem col_apply {α : Type} (x : S8x1.Idx → α) (p : Fin 8) (q : Fin 1024) :
    broadcastTo S8x1024 (shapeCast S8x1 x shapeCasts_S8x1_S8x1) broadcasts_S8x1_S8x1024 (ix2 p q) = x (ix2 p 0) := by
  rw [shapeCast_self]
  exact broadcastTo_apply x broadcasts_S8x1_S8x1024 (ix2 p q) (ix2 p 0) (fun a => by
    match a with
    | ⟨0, _⟩ => show p.val = if (8 : Nat) = 1 then 0 else p.val; rw [if_neg (by decide)]
    | ⟨1, _⟩ => show 0 = if (1 : Nat) = 1 then 0 else q.val; rw [if_pos rfl])

/-- A 1 × 1024 row broadcast along the columns, at (p, q): its entry q. -/
theorem row_apply {α : Type} (x : S1x1024.Idx → α) (p : Fin 8) (q : Fin 1024) :
    broadcastTo S8x1024 (shapeCast S1x1024 x shapeCasts_S1x1024_S1x1024) broadcasts_S1x1024_S8x1024 (ix2 p q) = x (ix2 0 q) := by
  rw [shapeCast_self]
  exact broadcastTo_apply x broadcasts_S1x1024_S8x1024 (ix2 p q) (ix2 0 q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-! ## The integer stage: the two bins and the flag of pair (p, q) -/

/-- The offset bin of pair (p, q). -/
theorem pay2_apply (x0 : Vec Ideal S8x1 .i32) (x1 : Vec Ideal S1x1024 .i32) (x2 : Vec Ideal S8x1 .i32)
    (x3 : Vec Ideal S1x1024 .i32) (p : Fin 8) (q : Fin 1024) :
    k0_pay2 (F := Ideal) x0 x1 x2 x3 (ix2 p q) = posBin (x0 (ix2 p 0)) (x1 (ix2 0 q)) (x2 (ix2 p 0)) (x3 (ix2 0 q)) := by
  have e0 := col_apply x0 p q
  have e1 := row_apply x1 p q
  have e2 := col_apply x2 p q
  have e3 := row_apply x3 p q
  unfold posBin
  rw [← e0, ← e1, ← e2, ← e3]
  rfl

/-- The entity flag of pair (p, q). -/
theorem pay3_apply (x6 : Vec Ideal S8x1 .i32) (x7 : Vec Ideal S1x1024 .i32) (p : Fin 8) (q : Fin 1024) :
    k0_pay3 (F := Ideal) x6 x7 (ix2 p q) = IntOp.cmpi .eq (x6 (ix2 p 0)) (x7 (ix2 0 q)) := by
  have e0 := col_apply x6 p q
  have e1 := row_apply x7 p q
  rw [← e0, ← e1]
  rfl

/-- The shifted copy offset of pair (p, q). -/
theorem pay4_apply (x4 : Vec Ideal S8x1 .i32) (x5 : Vec Ideal S1x1024 .i32) (p : Fin 8) (q : Fin 1024) :
    k0_pay4 (F := Ideal) x4 x5 (ix2 p q) = IntOp.addi (IntOp.subi (x4 (ix2 p 0)) (x5 (ix2 0 q))) 2#32 := by
  have e0 := col_apply x4 p q
  have e1 := row_apply x5 p q
  rw [← e0, ← e1]
  rfl

/-! ## The float stage at entry (p, q, c) -/

/-- The offset product at (p, q, c): the indicator row of the pair's bin against column c of the offset rows. -/
theorem piece65 (v : IVec S8x1024 32) (w : Vec Ideal S65x128 .f32) (p : Fin 8) (q : Fin 1024) (c : Fin 128) :
    shapeCast S8x1024x128 (matmul dot_S8192x65_S65x128_S8192x128_1_0_0_1_n_n none
        (shapeCast S8192x65 (truncf (F := Ideal) .bf16 (sitofp .f32 (extui 32 (cmpi .eq
          (broadcastTo S8x1024x65 (shapeCast S8x1024x1 v shapeCasts_S8x1024_S8x1024x1) broadcasts_S8x1024x1_S8x1024x65)
          (iota .tc S8x1024x65 32 [2] iota_S8x1024x65_d2_w32)) natLt_1_32)) bitsLt_bf16_f32)
          shapeCasts_S8x1024x65_S8192x65)
        (truncf .bf16 (shapeCast S65x128 w shapeCasts_S65x128_S65x128) bitsLt_bf16_f32)
        (constant S8192x128 .f32 0x00000000#32)) shapeCasts_S8192x128_S8x1024x128 (ix3 p q c)
      = ∑ k : Fin 65, ind (IntOp.cmpi .eq (v (ix2 p q)) (BitVec.ofNat 32 k.val)) * w (ix2 k c) := by
  have hlt : p.val * 1024 + q.val < 8192 := by have := p.isLt; have := q.isLt; omega
  refine (shapeCast_apply _ _ (ix3 p q c) (ix2 ⟨p.val * 1024 + q.val, hlt⟩ c) ?_).trans ?_
  · rw [Shape.rowMajor_val_three, Shape.rowMajor_val_two]
    rfl
  · refine (mm65_apply _ _ ⟨p.val * 1024 + q.val, hlt⟩ c).trans (Finset.sum_congr rfl fun k _ => ?_)
    refine congrArg₂ (· * ·) (hot65_apply v p q k ⟨p.val * 1024 + q.val, hlt⟩ rfl) ?_
    show shapeCast S65x128 w shapeCasts_S65x128_S65x128 (ix2 k c) = _
    rw [shapeCast_self]

/-- The copy product at (p, q, c): the indicator row of the pair's bin against column c of the copy rows. -/
theorem piece6 (v : IVec S8x1024 32) (w : Vec Ideal S6x128 .f32) (p : Fin 8) (q : Fin 1024) (c : Fin 128) :
    shapeCast S8x1024x128 (matmul dot_S8192x6_S6x128_S8192x128_1_0_0_1_n_n none
        (shapeCast S8192x6 (truncf (F := Ideal) .bf16 (sitofp .f32 (extui 32 (cmpi .eq
          (broadcastTo S8x1024x6 (shapeCast S8x1024x1 v shapeCasts_S8x1024_S8x1024x1) broadcasts_S8x1024x1_S8x1024x6)
          (iota .tc S8x1024x6 32 [2] iota_S8x1024x6_d2_w32)) natLt_1_32)) bitsLt_bf16_f32)
          shapeCasts_S8x1024x6_S8192x6)
        (truncf .bf16 (shapeCast S6x128 w shapeCasts_S6x128_S6x128) bitsLt_bf16_f32)
        (constant S8192x128 .f32 0x00000000#32)) shapeCasts_S8192x128_S8x1024x128 (ix3 p q c)
      = ∑ k : Fin 6, ind (IntOp.cmpi .eq (v (ix2 p q)) (BitVec.ofNat 32 k.val)) * w (ix2 k c) := by
  have hlt : p.val * 1024 + q.val < 8192 := by have := p.isLt; have := q.isLt; omega
  refine (shapeCast_apply _ _ (ix3 p q c) (ix2 ⟨p.val * 1024 + q.val, hlt⟩ c) ?_).trans ?_
  · rw [Shape.rowMajor_val_three, Shape.rowMajor_val_two]
    rfl
  · refine (mm6_apply _ _ ⟨p.val * 1024 + q.val, hlt⟩ c).trans (Finset.sum_congr rfl fun k _ => ?_)
    refine congrArg₂ (· * ·) (hot6_apply v p q k ⟨p.val * 1024 + q.val, hlt⟩ rfl) ?_
    show shapeCast S6x128 w shapeCasts_S6x128_S6x128 (ix2 k c) = _
    rw [shapeCast_self]

/-- The flag of pair (p, q), converted and broadcast along the columns, at (p, q, c). -/
theorem flag_apply (v : IVec S8x1024 1) (p : Fin 8) (q : Fin 1024) (c : Fin 128) :
    broadcastTo S8x1024x128 (shapeCast S8x1024x1 (sitofp (F := Ideal) .f32 (extui 32 v natLt_1_32))
        shapeCasts_S8x1024_S8x1024x1) broadcasts_S8x1024x1_S8x1024x128 (ix3 p q c) = ind (v (ix2 p q)) := by
  rw [broadcastTo_apply _ broadcasts_S8x1024x1_S8x1024x128 (ix3 p q c) (ix3 p q 0) (fun a => by
        match a with
        | ⟨0, _⟩ => show p.val = if (8 : Nat) = 1 then 0 else p.val; rw [if_neg (by decide)]
        | ⟨1, _⟩ => show q.val = if (1024 : Nat) = 1 then 0 else q.val; rw [if_neg (by decide)]
        | ⟨2, _⟩ => show 0 = if (1 : Nat) = 1 then 0 else c.val; rw [if_pos rfl]),
    shapeCast_apply _ shapeCasts_S8x1024_S8x1024x1 (ix3 p q 0) (ix2 p q) (by
        rw [Shape.rowMajor_val_three, Shape.rowMajor_val_two]
        show p.val * 1024 + q.val = (p.val * 1024 + q.val) * 1 + 0
        omega)]
  show ((((v (ix2 p q)).setWidth 32).toInt : ℝ) : EReal) = _
  rw [toInt_setWidth_one]
  rfl

/-- A 1 × 128 row viewed 1 × 1 × 128 and broadcast over the 8 × 1024 pairs, at (p, q, c): its entry c. -/
theorem lane_apply (w : Vec Ideal S1x128 .f32) (p : Fin 8) (q : Fin 1024) (c : Fin 128) :
    broadcastTo S8x1024x128 (shapeCast S1x1x128 (shapeCast S1x128 w shapeCasts_S1x128_S1x128) shapeCasts_S1x128_S1x1x128)
        broadcasts_S1x1x128_S8x1024x128 (ix3 p q c) = w (ix2 0 c) := by
  rw [shapeCast_self,
    broadcastTo_apply _ broadcasts_S1x1x128_S8x1024x128 (ix3 p q c) (ix3 0 0 c) (fun a => by
        match a with
        | ⟨0, _⟩ => show 0 = if (1 : Nat) = 1 then 0 else p.val; rw [if_pos rfl]
        | ⟨1, _⟩ => show 0 = if (1 : Nat) = 1 then 0 else q.val; rw [if_pos rfl]
        | ⟨2, _⟩ => show c.val = if (128 : Nat) = 1 then 0 else c.val; rw [if_neg (by decide)]),
    shapeCast_apply w shapeCasts_S1x128_S1x1x128 (ix3 0 0 c) (ix2 0 c) (by
        rw [Shape.rowMajor_val_three, Shape.rowMajor_val_two]
        show 0 * 128 + c.val = (0 * 1 + 0) * 128 + c.val
        omega)]

/-- The accumulated value before the bias at (p, q, c): the two products and the flag term. -/
theorem pay5_apply (v29 : IVec S8x1024 32) (v32 : IVec S8x1024 1) (v37 : IVec S8x1024 32)
    (v60 : Vec Ideal S65x128 .f32) (v63 : Vec Ideal S6x128 .f32) (v71 : Vec Ideal S1x128 .f32)
    (p : Fin 8) (q : Fin 1024) (c : Fin 128) :
    k0_pay5 (F := Ideal) v29 v32 v37 v60 v63 v71 (ix3 p q c)
      = (∑ k : Fin 65, ind (IntOp.cmpi .eq (v29 (ix2 p q)) (BitVec.ofNat 32 k.val)) * v60 (ix2 k c)
          + ∑ k : Fin 6, ind (IntOp.cmpi .eq (Scalar.select (v32 (ix2 p q))
              (IntOp.minsi 4#32 (IntOp.maxsi 0#32 (v37 (ix2 p q)))) 5#32) (BitVec.ofNat 32 k.val)) * v63 (ix2 k c))
        + ind (v32 (ix2 p q)) * v71 (ix2 0 c) :=
  congrArg₂ (· + ·)
    (congrArg₂ (· + ·) (piece65 v29 v60 p q c)
      (piece6 (select v32 (minsi (broadcast S8x1024 4#32) (maxsi (broadcast S8x1024 0#32) v37)) (broadcast S8x1024 5#32)) v63 p q c))
    (congrArg₂ (· * ·) (flag_apply v32 p q c) (lane_apply v71 p q c))

/-- The bias block broadcast over the pairs, at (p, q, c). -/
theorem pay6_apply (x11 : Vec Ideal S1x128 .f32) (p : Fin 8) (q : Fin 1024) (c : Fin 128) :
    k0_pay6 (F := Ideal) x11 (ix3 p q c) = x11 (ix2 0 c) := lane_apply x11 p q c

/-- The stored value at (0, p, q, c): the accumulated value plus the bias, both at (p, q, c). -/
theorem pay1_apply (A B : FVec Ideal S8x1024x128 .f32) (p : Fin 8) (q : Fin 1024) (c : Fin 128) :
    k0_pay1 (F := Ideal) A B (ix4 0 p q c) = A (ix3 p q c) + B (ix3 p q c) := by
  unfold k0_pay1
  exact shapeCast_apply _ shapeCasts_S8x1024x128_S1x8x1024x128 (ix4 0 p q c) (ix3 p q c) (by
    rw [Shape.rowMajor_val_three, Shape.rowMajor_val_four]
    show (p.val * 1024 + q.val) * 128 + c.val = ((0 * 8 + p.val) * 1024 + q.val) * 128 + c.val
    omega)

/-! ## The block after the body -/

theorem zeros2 : (![0, 0] : Fin 2 → Nat) = fun _ => 0 := funext fun a => by
  match a with
  | ⟨0, _⟩ => rfl
  | ⟨1, _⟩ => rfl

theorem zeros4 : (![0, 0, 0, 0] : Fin 4 → Nat) = fun _ => 0 := funext fun a => by
  match a with
  | ⟨0, _⟩ => rfl
  | ⟨1, _⟩ => rfl
  | ⟨2, _⟩ => rfl
  | ⟨3, _⟩ => rfl

/-- The body stores one value over the whole block, computed from the whole input blocks. -/
theorem out_eq (x0 : Vec Ideal S8x1 .i32) (x1 : Vec Ideal S1x1024 .i32) (x2 : Vec Ideal S8x1 .i32)
    (x3 : Vec Ideal S1x1024 .i32) (x4 : Vec Ideal S8x1 .i32) (x5 : Vec Ideal S1x1024 .i32) (x6 : Vec Ideal S8x1 .i32)
    (x7 : Vec Ideal S1x1024 .i32) (x8 : Vec Ideal S65x128 .f32) (x9 : Vec Ideal S1x128 .f32)
    (x10 : Vec Ideal S6x128 .f32) (x11 : Vec Ideal S1x128 .f32) :
    out0_12 (F := Ideal) x0 x1 x2 x3 x4 x5 x6 x7 x8 x9 x10 x11
      = k0_pay1 (k0_pay5 (k0_pay2 x0 x1 x2 x3) (k0_pay3 x6 x7) (k0_pay4 x4 x5) x8 x10 x9) (k0_pay6 x11) := by
  unfold out0_12
  rw [View.canon_unit_zero zeros4]
  simp only [View.ld_unit_zero (S := S8x1) zeros2, View.ld_unit_zero (S := S1x1024) zeros2,
    View.ld_unit_zero (S := S65x128) zeros2, View.ld_unit_zero (S := S6x128) zeros2,
    View.ld_unit_zero (S := S1x128) zeros2]

/-- ENTRY (0, p, q, c) OF THE BLOCK AFTER THE BODY is the encoding's entry for the pair's identifiers. -/
theorem out_entry (x0 : Vec Ideal S8x1 .i32) (x1 : Vec Ideal S1x1024 .i32) (x2 : Vec Ideal S8x1 .i32)
    (x3 : Vec Ideal S1x1024 .i32) (x4 : Vec Ideal S8x1 .i32) (x5 : Vec Ideal S1x1024 .i32) (x6 : Vec Ideal S8x1 .i32)
    (x7 : Vec Ideal S1x1024 .i32) (x8 : Vec Ideal S65x128 .f32) (x9 : Vec Ideal S1x128 .f32)
    (x10 : Vec Ideal S6x128 .f32) (x11 : Vec Ideal S1x128 .f32) (p : Fin 8) (q : Fin 1024) (c : Fin 128) :
    out0_12 (F := Ideal) x0 x1 x2 x3 x4 x5 x6 x7 x8 x9 x10 x11 (ix4 0 p q c)
      = entryOf (x0 (ix2 p 0)) (x1 (ix2 0 q)) (x2 (ix2 p 0)) (x3 (ix2 0 q)) (x4 (ix2 p 0)) (x5 (ix2 0 q))
          (x6 (ix2 p 0)) (x7 (ix2 0 q)) (fun k => x8 (ix2 k c)) (x9 (ix2 0 c)) (fun k => x10 (ix2 k c)) (x11 (ix2 0 c)) := by
  rw [out_eq, pay1_apply, pay5_apply, pay6_apply, pay2_apply, pay3_apply, pay4_apply]
  rfl

end Cert.KernelIdeal.Bridge

end
-- ==== Proof.Arrays.lean ====
/-
  What the kernel's windows find in their arrays.

  Before the call the host lays the arguments out for the windows: each identifier row 1 × 1024 is flattened and viewed
  once as a column 1024 × 1 (the "query" side) and once as a row 1 × 1024 again (the "key" side); the weight matrix is
  cut into its rows 0–64 (offset rows), row 65 (entity row) and rows 66–71 (copy rows); the bias is viewed 1 × 128.
  A reshape keeps row-major order, so the column's entry (i, 0) and the row's entry (0, i) are both the argument's
  entry (0, i); a slice reads the matrix at the row shifted by its offset.
-/
import proofs.«131732_j7567732376211_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

/-! ## Reshapes of a row read at an index -/

section Layout
variable {α : Type}

/-- A 1 × 1024 row flattened and viewed as a 1024 × 1 column, at (i, 0): the row's entry i. -/
theorem asColumn_apply (x : S1x1024.Idx → α) (i : Fin 1024) :
    shapeCast S1024x1 (shapeCast S1024 x shapeCasts_S1x1024_S1024) shapeCasts_S1024_S1024x1 (ix2 i 0) = x (ix2 0 i) := by
  refine (shapeCast_apply _ shapeCasts_S1024_S1024x1 (ix2 i 0) (ix1 i) ?_).trans
    (shapeCast_apply x shapeCasts_S1x1024_S1024 (ix1 i) (ix2 0 i) ?_)
  · rw [Shape.rowMajor_val_one, Shape.rowMajor_val_two]
    show i.val = i.val * 1 + 0
    omega
  · rw [Shape.rowMajor_val_one, Shape.rowMajor_val_two]
    show 0 * 1024 + i.val = i.val
    omega

/-- A 1 × 1024 row flattened and viewed as a 1 × 1024 row again, at (0, j): the row's entry j. -/
theorem asRow_apply (x : S1x1024.Idx → α) (j : Fin 1024) :
    shapeCast S1x1024 (shapeCast S1024 x shapeCasts_S1x1024_S1024) shapeCasts_S1024_S1x1024 (ix2 0 j) = x (ix2 0 j) := by
  refine (shapeCast_apply _ shapeCasts_S1024_S1x1024 (ix2 0 j) (ix1 j) ?_).trans
    (shapeCast_apply x shapeCasts_S1x1024_S1024 (ix1 j) (ix2 0 j) ?_)
  · rw [Shape.rowMajor_val_one, Shape.rowMajor_val_two]
    show j.val = 0 * 1024 + j.val
    omega
  · rw [Shape.rowMajor_val_one, Shape.rowMajor_val_two]
    show 0 * 1024 + j.val = j.val
    omega

end Layout

variable (m : (ℓ : Loc nD τ sig) → Buf (Elt Ideal) ℓ)

/-! ## The identifier columns and rows -/

theorem V_v1 (c : Dev nD) : (V m c main_v1 : S1024x1.Idx → BitVec 32)
    = shapeCast S1024x1 (shapeCast S1024 (m ((c : Thread nD τ).loc main_arg0)) shapeCasts_S1x1024_S1024) shapeCasts_S1024_S1024x1 := by
  dsimp only [Gen.V, Gen.hostOps0]; after_results; rfl

theorem V_v3 (c : Dev nD) : (V m c main_v3 : S1x1024.Idx → BitVec 32)
    = shapeCast S1x1024 (shapeCast S1024 (m ((c : Thread nD τ).loc main_arg0)) shapeCasts_S1x1024_S1024) shapeCasts_S1024_S1x1024 := by
  dsimp only [Gen.V, Gen.hostOps0]; after_results; rfl

theorem V_v5 (c : Dev nD) : (V m c main_v5 : S1024x1.Idx → BitVec 32)
    = shapeCast S1024x1 (shapeCast S1024 (m ((c : Thread nD τ).loc main_arg1)) shapeCasts_S1x1024_S1024) shapeCasts_S1024_S1024x1 := by
  dsimp only [Gen.V, Gen.hostOps0]; after_results; rfl

theorem V_v7 (c : Dev nD) : (V m c main_v7 : S1x1024.Idx → BitVec 32)
    = shapeCast S1x1024 (shapeCast S1024 (m ((c : Thread nD τ).loc main_arg1)) shapeCasts_S1x1024_S1024) shapeCasts_S1024_S1x1024 := by
  dsimp only [Gen.V, Gen.hostOps0]; after_results; rfl

theorem V_v9 (c : Dev nD) : (V m c main_v9 : S1024x1.Idx → BitVec 32)
    = shapeCast S1024x1 (shapeCast S1024 (m ((c : Thread nD τ).loc main_arg2)) shapeCasts_S1x1024_S1024) shapeCasts_S1024_S1024x1 := by
  dsimp only [Gen.V, Gen.hostOps0]; after_results; rfl

theorem V_v11 (c : Dev nD) : (V m c main_v11 : S1x1024.Idx → BitVec 32)
    = shapeCast S1x1024 (shapeCast S1024 (m ((c : Thread nD τ).loc main_arg2)) shapeCasts_S1x1024_S1024) shapeCasts_S1024_S1x1024 := by
  dsimp only [Gen.V, Gen.hostOps0]; after_results; rfl

theorem V_v13 (c : Dev nD) : (V m c main_v13 : S1024x1.Idx → BitVec 32)
    = shapeCast S1024x1 (shapeCast S1024 (m ((c : Thread nD τ).loc main_arg3)) shapeCasts_S1x1024_S1024) shapeCasts_S1024_S1024x1 := by
  dsimp only [Gen.V, Gen.hostOps0]; after_results; rfl

theorem V_v15 (c : Dev nD) : (V m c main_v15 : S1x1024.Idx → BitVec 32)
    = shapeCast S1x1024 (shapeCast S1024 (m ((c : Thread nD τ).loc main_arg3)) shapeCasts_S1x1024_S1024) shapeCasts_S1024_S1x1024 := by
  dsimp only [Gen.V, Gen.hostOps0]; after_results; rfl

/-- Column of residue indices at (i, 0). -/
theorem read_v1 (c : Dev nD) (i : Fin 1024) : V m c main_v1 (ix2 i 0) = m ((c : Thread nD τ).loc main_arg0) (ix2 0 i) :=
  (congrFun (V_v1 m c) (ix2 i 0)).trans (asColumn_apply _ i)
/-- Row of residue indices at (0, j). -/
theorem read_v3 (c : Dev nD) (j : Fin 1024) : V m c main_v3 (ix2 0 j) = m ((c : Thread nD τ).loc main_arg0) (ix2 0 j) :=
  (congrFun (V_v3 m c) (ix2 0 j)).trans (asRow_apply _ j)
/-- Column of chain identifiers at (i, 0). -/
theorem read_v5 (c : Dev nD) (i : Fin 1024) : V m c main_v5 (ix2 i 0) = m ((c : Thread nD τ).loc main_arg1) (ix2 0 i) :=
  (congrFun (V_v5 m c) (ix2 i 0)).trans (asColumn_apply _ i)
/-- Row of chain identifiers at (0, j). -/
theorem read_v7 (c : Dev nD) (j : Fin 1024) : V m c main_v7 (ix2 0 j) = m ((c : Thread nD τ).loc main_arg1) (ix2 0 j) :=
  (congrFun (V_v7 m c) (ix2 0 j)).trans (asRow_apply _ j)
/-- Column of copy identifiers at (i, 0). -/
theorem read_v9 (c : Dev nD) (i : Fin 1024) : V m c main_v9 (ix2 i 0) = m ((c : Thread nD τ).loc main_arg2) (ix2 0 i) :=
  (congrFun (V_v9 m c) (ix2 i 0)).trans (asColumn_apply _ i)
/-- Row of copy identifiers at (0, j). -/
theorem read_v11 (c : Dev nD) (j : Fin 1024) : V m c main_v11 (ix2 0 j) = m ((c : Thread nD τ).loc main_arg2) (ix2 0 j) :=
  (congrFun (V_v11 m c) (ix2 0 j)).trans (asRow_apply _ j)
/-- Column of entity identifiers at (i, 0). -/
theorem read_v13 (c : Dev nD) (i : Fin 1024) : V m c main_v13 (ix2 i 0) = m ((c : Thread nD τ).loc main_arg3) (ix2 0 i) :=
  (congrFun (V_v13 m c) (ix2 i 0)).trans (asColumn_apply _ i)
/-- Row of entity identifiers at (0, j). -/
theorem read_v15 (c : Dev nD) (j : Fin 1024) : V m c main_v15 (ix2 0 j) = m ((c : Thread nD τ).loc main_arg3) (ix2 0 j) :=
  (congrFun (V_v15 m c) (ix2 0 j)).trans (asRow_apply _ j)

/-! ## The three row blocks of the weights, and the bias -/

theorem V_v16 (c : Dev nD) : (V m c main_v16 : S65x128.Idx → EReal)
    = extractStridedSlice S65x128 ![0, 0] (m ((c : Thread nD τ).loc main_arg4)) slices_S72x128_S65x128_0_0 := by
  dsimp only [Gen.V, Gen.hostOps0]; after_results

theorem V_v17 (c : Dev nD) : (V m c main_v17 : S1x128.Idx → EReal)
    = extractStridedSlice S1x128 ![65, 0] (m ((c : Thread nD τ).loc main_arg4)) slices_S72x128_S1x128_65_0 := by
  dsimp only [Gen.V, Gen.hostOps0]; after_results

theorem V_v18 (c : Dev nD) : (V m c main_v18 : S6x128.Idx → EReal)
    = extractStridedSlice S6x128 ![66, 0] (m ((c : Thread nD τ).loc main_arg4)) slices_S72x128_S6x128_66_0 := by
  dsimp only [Gen.V, Gen.hostOps0]; after_results

theorem V_v19 (c : Dev nD) : (V m c main_v19 : S1x128.Idx → EReal)
    = shapeCast S1x128 (m ((c : Thread nD τ).loc main_arg5)) shapeCasts_S128_S1x128 := by
  dsimp only [Gen.V, Gen.hostOps0]; after_results; rfl

/-- Offset row k of the weights at column c. -/
theorem read_v16 (c : Dev nD) (k : Fin 65) (l : Fin 128) :
    V m c main_v16 (ix2 k l) = m ((c : Thread nD τ).loc main_arg4) (ix2 ⟨k.val, Nat.lt_of_lt_of_le k.isLt (by decide)⟩ l) :=
  (congrFun (V_v16 m c) (ix2 k l)).trans (extractStridedSlice_apply _ _ slices_S72x128_S65x128_0_0 (ix2 k l) _ (fun a => by
    match a with
    | ⟨0, _⟩ => exact (Nat.zero_add k.val).symm
    | ⟨1, _⟩ => exact (Nat.zero_add l.val).symm))

/-- The entity row of the weights at column c. -/
theorem read_v17 (c : Dev nD) (l : Fin 128) :
    V m c main_v17 (ix2 0 l) = m ((c : Thread nD τ).loc main_arg4) (ix2 ⟨65, by decide⟩ l) :=
  (congrFun (V_v17 m c) (ix2 0 l)).trans (extractStridedSlice_apply _ _ slices_S72x128_S1x128_65_0 (ix2 0 l) _ (fun a => by
    match a with
    | ⟨0, _⟩ => rfl
    | ⟨1, _⟩ => exact (Nat.zero_add l.val).symm))

/-- Copy row k of the weights at column c. -/
theorem read_v18 (c : Dev nD) (k : Fin 6) (l : Fin 128) :
    V m c main_v18 (ix2 k l) = m ((c : Thread nD τ).loc main_arg4) (ix2 ⟨66 + k.val, by have := k.isLt; omega⟩ l) :=
  (congrFun (V_v18 m c) (ix2 k l)).trans (extractStridedSlice_apply _ _ slices_S72x128_S6x128_66_0 (ix2 k l) _ (fun a => by
    match a with
    | ⟨0, _⟩ => rfl
    | ⟨1, _⟩ => exact (Nat.zero_add l.val).symm))

/-- The bias at column c. -/
theorem read_v19 (c : Dev nD) (l : Fin 128) :
    V m c main_v19 (ix2 0 l) = m ((c : Thread nD τ).loc main_arg5) (ix1 l) :=
  (congrFun (V_v19 m c) (ix2 0 l)).trans (shapeCast_apply _ shapeCasts_S128_S1x128 (ix2 0 l) (ix1 l) (by
    rw [Shape.rowMajor_val_one, Shape.rowMajor_val_two]
    show l.val = 0 * 128 + l.val
    omega))

end Cert.KernelIdeal.Bridge

end
-- ==== Proof.Blocks.lean ====
/-
  From the blocks to the whole result.

  Grid point t (one of 128) writes the block of rows 8 t … 8 t + 7 of the result: all 1024 columns, all 128 lanes.  It
  reads block t of each identifier column (rows 8 t … 8 t + 7), and the whole of each identifier row, of the three
  weight blocks and of the bias.  So entry (0, p, q, c) of what it writes is the encoding's entry (0, 8 t + p, q, c):
  what point t writes back is block t of the whole array `G`.  The 128 blocks tile the rows, so every index of the
  result lies in the block of point (row / 8), and the array after the run is `G` of the argument arrays.
-/
import proofs.«131732_j7567732376211_1_alg».proof.Proof.Gen.KernelIdeal.Value
import proofs.«131732_j7567732376211_1_alg».proof.Proof.Body
import proofs.«131732_j7567732376211_1_alg».proof.Proof.Arrays

noncomputable section

namespace Cert.KernelIdeal.Bridge

open Cert.KernelIdeal Cert.KernelIdeal.Gen Idealize.ShloMosaic Idealize.ShloMosaic.TcCoe Idealize.SL.Sem
open Idealize.ShloMosaic.ValueIdx Cert.RelPos
open Idealize.ShloMosaic.Pipeline (Dat)

variable (m : (ℓ : Loc nD τ sig) → Buf (Elt Ideal) ℓ) (ρ : Dev nD → PrngReg)

/-- The encoding of the argument arrays as core `c` holds them at launch. -/
abbrev result (c : Dev nD) : S1x1024x1024x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The block index of every window at every grid point, decided over the 128 points: the identifier columns and the
    result move with the point along their row axis; everything else stays at block 0. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 4) = 0 ∧ win0_12.index t (1 : Fin 4) = t.val
        ∧ win0_12.index t (2 : Fin 4) = 0 ∧ win0_12.index t (3 : Fin 4) = 0) :=
  (by decide +kernel : ∀ t : Fin grid0.N, _)

/-! ## The input blocks at a point, read off the argument arrays -/

/-- Row p of block t of the residue column is entry 8 t + p of the residue row. -/
theorem blk0 (c : Dev nD) (t : Fin cfg0.N) (p : Fin 8) (i : Fin 1024) (hi : i.val = t.val * 8 + p.val) :
    iblk m c 0 t (ix2 p 0) = m ((c : Thread nD τ).loc main_arg0) (ix2 0 i) := by
  have hf := idx_facts t
  have h0 : win0_0.index t (0 : Fin 2) = t.val := by omega
  have h1 : win0_0.index t (1 : Fin 2) = 0 := by omega
  show V m c main_v1 (((cfg0.win 0).blk t).view.emb (ix2 p 0)) = _
  have e : ((cfg0.win 0).blk t).view.emb (ix2 p 0) = ix2 i 0 := funext fun a => Fin.ext (by
    match a with
    | ⟨0, _⟩ => show win0_0.index t (0 : Fin 2) * 8 + 1 * p.val = i.val; omega
    | ⟨1, _⟩ => show win0_0.index t (1 : Fin 2) * 1 + 1 * 0 = 0; omega)
  rw [e, read_v1]

/-- The residue row is staged whole. -/
theorem blk1 (c : Dev nD) (t : Fin cfg0.N) (q : Fin 1024) :
    iblk m c 1 t (ix2 0 q) = m ((c : Thread nD τ).loc main_arg0) (ix2 0 q) := by
  have hf := idx_facts t
  have h0 : win0_1.index t (0 : Fin 2) = 0 := by omega
  have h1 : win0_1.index t (1 : Fin 2) = 0 := by omega
  show V m c main_v3 (((cfg0.win 1).blk t).view.emb (ix2 0 q)) = _
  have e : ((cfg0.win 1).blk t).view.emb (ix2 0 q) = ix2 0 q := funext fun a => Fin.ext (by
    match a with
    | ⟨0, _⟩ => show win0_1.index t (0 : Fin 2) * 1 + 1 * 0 = 0; omega
    | ⟨1, _⟩ => show win0_1.index t (1 : Fin 2) * 1024 + 1 * q.val = q.val; omega)
  rw [e, read_v3]

/-- Row p of block t of the chain column is entry 8 t + p of the chain row. -/
theorem blk2 (c : Dev nD) (t : Fin cfg0.N) (p : Fin 8) (i : Fin 1024) (hi : i.val = t.val * 8 + p.val) :
    iblk m c 2 t (ix2 p 0) = m ((c : Thread nD τ).loc main_arg1) (ix2 0 i) := by
  have hf := idx_facts t
  have h0 : win0_2.index t (0 : Fin 2) = t.val := by omega
  have h1 : win0_2.index t (1 : Fin 2) = 0 := by omega
  show V m c main_v5 (((cfg0.win 2).blk t).view.emb (ix2 p 0)) = _
  have e : ((cfg0.win 2).blk t).view.emb (ix2 p 0) = ix2 i 0 := funext fun a => Fin.ext (by
    match a with
    | ⟨0, _⟩ => show win0_2.index t (0 : Fin 2) * 8 + 1 * p.val = i.val; omega
    | ⟨1, _⟩ => show win0_2.index t (1 : Fin 2) * 1 + 1 * 0 = 0; omega)
  rw [e, read_v5]

/-- The chain row is staged whole. -/
theorem blk3 (c : Dev nD) (t : Fin cfg0.N) (q : Fin 1024) :
    iblk m c 3 t (ix2 0 q) = m ((c : Thread nD τ).loc main_arg1) (ix2 0 q) := by
  have hf := idx_facts t
  have h0 : win0_3.index t (0 : Fin 2) = 0 := by omega
  have h1 : win0_3.index t (1 : Fin 2) = 0 := by omega
  show V m c main_v7 (((cfg0.win 3).blk t).view.emb (ix2 0 q)) = _
  have e : ((cfg0.win 3).blk t).view.emb (ix2 0 q) = ix2 0 q := funext fun a => Fin.ext (by
    match a with
    | ⟨0, _⟩ => show win0_3.index t (0 : Fin 2) * 1 + 1 * 0 = 0; omega
    | ⟨1, _⟩ => show win0_3.index t (1 : Fin 2) * 1024 + 1 * q.val = q.val; omega)
  rw [e, read_v7]

/-- Row p of block t of the copy column is entry 8 t + p of the copy row. -/
theorem blk4 (c : Dev nD) (t : Fin cfg0.N) (p : Fin 8) (i : Fin 1024) (hi : i.val = t.val * 8 + p.val) :
    iblk m c 4 t (ix2 p 0) = m ((c : Thread nD τ).loc main_arg2) (ix2 0 i) := by
  have hf := idx_facts t
  have h0 : win0_4.index t (0 : Fin 2) = t.val := by omega
  have h1 : win0_4.index t (1 : Fin 2) = 0 := by omega
  show V m c main_v9 (((cfg0.win 4).blk t).view.emb (ix2 p 0)) = _
  have e : ((cfg0.win 4).blk t).view.emb (ix2 p 0) = ix2 i 0 := funext fun a => Fin.ext (by
    match a with
    | ⟨0, _⟩ => show win0_4.index t (0 : Fin 2) * 8 + 1 * p.val = i.val; omega
    | ⟨1, _⟩ => show win0_4.index t (1 : Fin 2) * 1 + 1 * 0 = 0; omega)
  rw [e, read_v9]

/-- The copy row is staged whole. -/
theorem blk5 (c : Dev nD) (t : Fin cfg0.N) (q : Fin 1024) :
    iblk m c 5 t (ix2 0 q) = m ((c : Thread nD τ).loc main_arg2) (ix2 0 q) := by
  have hf := idx_facts t
  have h0 : win0_5.index t (0 : Fin 2) = 0 := by omega
  have h1 : win0_5.index t (1 : Fin 2) = 0 := by omega
  show V m c main_v11 (((cfg0.win 5).blk t).view.emb (ix2 0 q)) = _
  have e : ((cfg0.win 5).blk t).view.emb (ix2 0 q) = ix2 0 q := funext fun a => Fin.ext (by
    match a with
    | ⟨0, _⟩ => show win0_5.index t (0 : Fin 2) * 1 + 1 * 0 = 0; omega
    | ⟨1, _⟩ => show win0_5.index t (1 : Fin 2) * 1024 + 1 * q.val = q.val; omega)
  rw [e, read_v11]

/-- Row p of block t of the entity column is entry 8 t + p of the entity row. -/
theorem blk6 (c : Dev nD) (t : Fin cfg0.N) (p : Fin 8) (i : Fin 1024) (hi : i.val = t.val * 8 + p.val) :
    iblk m c 6 t (ix2 p 0) = m ((c : Thread nD τ).loc main_arg3) (ix2 0 i) := by
  have hf := idx_facts t
  have h0 : win0_6.index t (0 : Fin 2) = t.val := by omega
  have h1 : win0_6.index t (1 : Fin 2) = 0 := by omega
  show V m c main_v13 (((cfg0.win 6).blk t).view.emb (ix2 p 0)) = _
  have e : ((cfg0.win 6).blk t).view.emb (ix2 p 0) = ix2 i 0 := funext fun a => Fin.ext (by
    match a with
    | ⟨0, _⟩ => show win0_6.index t (0 : Fin 2) * 8 + 1 * p.val = i.val; omega
    | ⟨1, _⟩ => show win0_6.index t (1 : Fin 2) * 1 + 1 * 0 = 0; omega)
  rw [e, read_v13]

/-- The entity row is staged whole. -/
theorem blk7 (c : Dev nD) (t : Fin cfg0.N) (q : Fin 1024) :
    iblk m c 7 t (ix2 0 q) = m ((c : Thread nD τ).loc main_arg3) (ix2 0 q) := by
  have hf := idx_facts t
  have h0 : win0_7.index t (0 : Fin 2) = 0 := by omega
  have h1 : win0_7.index t (1 : Fin 2) = 0 := by omega
  show V m c main_v15 (((cfg0.win 7).blk t).view.emb (ix2 0 q)) = _
  have e : ((cfg0.win 7).blk t).view.emb (ix2 0 q) = ix2 0 q := funext fun a => Fin.ext (by
    match a with
    | ⟨0, _⟩ => show win0_7.index t (0 : Fin 2) * 1 + 1 * 0 = 0; omega
    | ⟨1, _⟩ => show win0_7.index t (1 : Fin 2) * 1024 + 1 * q.val = q.val; omega)
  rw [e, read_v15]

/-- The offset rows of the weights are staged whole. -/
theorem blk8 (c : Dev nD) (t : Fin cfg0.N) (k : Fin 65) (l : Fin 128) :
    iblk m c 8 t (ix2 k l) = m ((c : Thread nD τ).loc main_arg4) (ix2 ⟨k.val, Nat.lt_of_lt_of_le k.isLt (by decide)⟩ l) := by
  have hf := idx_facts t
  have h0 : win0_8.index t (0 : Fin 2) = 0 := by omega
  have h1 : win0_8.index t (1 : Fin 2) = 0 := by omega
  show V m c main_v16 (((cfg0.win 8).blk t).view.emb (ix2 k l)) = _
  have e : ((cfg0.win 8).blk t).view.emb (ix2 k l) = ix2 k l := funext fun a => Fin.ext (by
    match a with
    | ⟨0, _⟩ => show win0_8.index t (0 : Fin 2) * 65 + 1 * k.val = k.val; omega
    | ⟨1, _⟩ => show win0_8.index t (1 : Fin 2) * 128 + 1 * l.val = l.val; omega)
  rw [e, read_v16]

/-- The entity row of the weights is staged whole. -/
theorem blk9 (c : Dev nD) (t : Fin cfg0.N) (l : Fin 128) :
    iblk m c 9 t (ix2 0 l) = m ((c : Thread nD τ).loc main_arg4) (ix2 ⟨65, by decide⟩ l) := by
  have hf := idx_facts t
  have h0 : win0_9.index t (0 : Fin 2) = 0 := by omega
  have h1 : win0_9.index t (1 : Fin 2) = 0 := by omega
  show V m c main_v17 (((cfg0.win 9).blk t).view.emb (ix2 0 l)) = _
  have e : ((cfg0.win 9).blk t).view.emb (ix2 0 l) = ix2 0 l := funext fun a => Fin.ext (by
    match a with
    | ⟨0, _⟩ => show win0_9.index t (0 : Fin 2) * 1 + 1 * 0 = 0; omega
    | ⟨1, _⟩ => show win0_9.index t (1 : Fin 2) * 128 + 1 * l.val = l.val; omega)
  rw [e, read_v17]

/-- The copy rows of the weights are staged whole. -/
theorem blk10 (c : Dev nD) (t : Fin cfg0.N) (k : Fin 6) (l : Fin 128) :
    iblk m c 10 t (ix2 k l) = m ((c : Thread nD τ).loc main_arg4) (ix2 ⟨66 + k.val, by have := k.isLt; omega⟩ l) := by
  have hf := idx_facts t
  have h0 : win0_10.index t (0 : Fin 2) = 0 := by omega
  have h1 : win0_10.index t (1 : Fin 2) = 0 := by omega
  show V m c main_v18 (((cfg0.win 10).blk t).view.emb (ix2 k l)) = _
  have e : ((cfg0.win 10).blk t).view.emb (ix2 k l) = ix2 k l := funext fun a => Fin.ext (by
    match a with
    | ⟨0, _⟩ => show win0_10.index t (0 : Fin 2) * 6 + 1 * k.val = k.val; omega
    | ⟨1, _⟩ => show win0_10.index t (1 : Fin 2) * 128 + 1 * l.val = l.val; omega)
  rw [e, read_v18]

/-- The bias is staged whole. -/
theorem blk11 (c : Dev nD) (t : Fin cfg0.N) (l : Fin 128) :
    iblk m c 11 t (ix2 0 l) = m ((c : Thread nD τ).loc main_arg5) (ix1 l) := by
  have hf := idx_facts t
  have h0 : win0_11.index t (0 : Fin 2) = 0 := by omega
  have h1 : win0_11.index t (1 : Fin 2) = 0 := by omega
  show V m c main_v19 (((cfg0.win 11).blk t).view.emb (ix2 0 l)) = _
  have e : ((cfg0.win 11).blk t).view.emb (ix2 0 l) = ix2 0 l := funext fun a => Fin.ext (by
    match a with
    | ⟨0, _⟩ => show win0_11.index t (0 : Fin 2) * 1 + 1 * 0 = 0; omega
    | ⟨1, _⟩ => show win0_11.index t (1 : Fin 2) * 128 + 1 * l.val = l.val; omega)
  rw [e, read_v19]

/-! ## What a point writes back -/

/-- The encoding's entry depends only on its twelve ingredients. -/
theorem entryOf_congr {a1 a2 a3 a4 a5 a6 a7 a8 b1 b2 b3 b4 b5 b6 b7 b8 : BitVec 32} {wp wp' : Fin 65 → EReal}
    {we we' : EReal} {wc wc' : Fin 6 → EReal} {bs bs' : EReal}
    (h1 : a1 = b1) (h2 : a2 = b2) (h3 : a3 = b3) (h4 : a4 = b4) (h5 : a5 = b5) (h6 : a6 = b6) (h7 : a7 = b7)
    (h8 : a8 = b8) (hp : wp = wp') (he : we = we') (hc : wc = wc') (hb : bs = bs') :
    entryOf a1 a2 a3 a4 a5 a6 a7 a8 wp we wc bs = entryOf b1 b2 b3 b4 b5 b6 b7 b8 wp' we' wc' bs' := by
  subst h1 h2 h3 h4 h5 h6 h7 h8 hp he hc hb
  rfl

/-- The block after the body at any index of the block. -/
theorem out_entry_idx (x0 : Vec Ideal S8x1 .i32) (x1 : Vec Ideal S1x1024 .i32) (x2 : Vec Ideal S8x1 .i32)
    (x3 : Vec Ideal S1x1024 .i32) (x4 : Vec Ideal S8x1 .i32) (x5 : Vec Ideal S1x1024 .i32) (x6 : Vec Ideal S8x1 .i32)
    (x7 : Vec Ideal S1x1024 .i32) (x8 : Vec Ideal S65x128 .f32) (x9 : Vec Ideal S1x128 .f32)
    (x10 : Vec Ideal S6x128 .f32) (x11 : Vec Ideal S1x128 .f32) (y : S1x8x1024x128.Idx)
    (p : Fin 8) (q : Fin 1024) (l : Fin 128) (hp : (y 1).val = p.val) (hq : (y 2).val = q.val) (hl : (y 3).val = l.val) :
    out0_12 (F := Ideal) x0 x1 x2 x3 x4 x5 x6 x7 x8 x9 x10 x11 y
      = entryOf (x0 (ix2 p 0)) (x1 (ix2 0 q)) (x2 (ix2 p 0)) (x3 (ix2 0 q)) (x4 (ix2 p 0)) (x5 (ix2 0 q))
          (x6 (ix2 p 0)) (x7 (ix2 0 q)) (fun k => x8 (ix2 k l)) (x9 (ix2 0 l)) (fun k => x10 (ix2 k l)) (x11 (ix2 0 l)) := by
  have hy : y = ix4 0 p q l := funext fun a => Fin.ext (by
    match a with
    | ⟨0, _⟩ => have h0 : (y 0).val < 1 := (y 0).isLt; show (y 0).val = 0; omega
    | ⟨1, _⟩ => exact hp
    | ⟨2, _⟩ => exact hq
    | ⟨3, _⟩ => exact hl)
  rw [hy]
  exact out_entry x0 x1 x2 x3 x4 x5 x6 x7 x8 x9 x10 x11 p q l

/-- WHAT POINT t WRITES BACK is block t of the encoding of the argument arrays. -/
theorem flushed_eq (c : Dev nD) (t : Fin cfg0.N) :
    (dats m 0 c).flushed 12 t = ((cfg0.win 12).blk t).view.read (Elt Ideal) (result m c) := by
  rw [Value.flushed12]
  funext y
  have hf := idx_facts t
  have ht : t.val < 128 := Nat.lt_of_lt_of_le t.isLt (Nat.le_of_eq N_0)
  have hy1 : (y 1).val < 8 := (y 1).isLt
  have hy2 : (y 2).val < 1024 := (y 2).isLt
  have hy3 : (y 3).val < 128 := (y 3).isLt
  have e1 : ((((cfg0.win 12).blk t).view.emb y) 1).val = t.val * 8 + (y 1).val := by
    show win0_12.index t (1 : Fin 4) * 8 + 1 * (y 1).val = _
    omega
  have e2 : ((((cfg0.win 12).blk t).view.emb y) 2).val = (y 2).val := by
    show win0_12.index t (2 : Fin 4) * 1024 + 1 * (y 2).val = _
    omega
  have e3 : ((((cfg0.win 12).blk t).view.emb y) 3).val = (y 3).val := by
    show win0_12.index t (3 : Fin 4) * 128 + 1 * (y 3).val = _
    omega
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) y
    = result m c (((cfg0.win 12).blk t).view.emb y)
  refine (out_entry_idx (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) y
    ⟨(y 1).val, hy1⟩ ⟨(y 2).val, hy2⟩ ⟨(y 3).val, hy3⟩ rfl rfl rfl).trans ?_
  dsimp only [result, G]
  exact entryOf_congr
    (blk0 m c t ⟨(y 1).val, hy1⟩ _ e1) (blk1 m c t _ |>.trans (congrArg _ (congrArg (ix2 0) (Fin.ext e2.symm))))
    (blk2 m c t ⟨(y 1).val, hy1⟩ _ e1) (blk3 m c t _ |>.trans (congrArg _ (congrArg (ix2 0) (Fin.ext e2.symm))))
    (blk4 m c t ⟨(y 1).val, hy1⟩ _ e1) (blk5 m c t _ |>.trans (congrArg _ (congrArg (ix2 0) (Fin.ext e2.symm))))
    (blk6 m c t ⟨(y 1).val, hy1⟩ _ e1) (blk7 m c t _ |>.trans (congrArg _ (congrArg (ix2 0) (Fin.ext e2.symm))))
    (funext fun k => (blk8 m c t k _).trans (congrArg _ (congrArg (ix2 _) (Fin.ext e3.symm))))
    ((blk9 m c t _).trans (congrArg _ (congrArg (ix2 _) (Fin.ext e3.symm))))
    (funext fun k => (blk10 m c t k _).trans (congrArg _ (congrArg (ix2 _) (Fin.ext e3.symm))))
    ((blk11 m c t _).trans (congrArg _ (congrArg ix1 (Fin.ext e3.symm))))

/-! ## The blocks tile the result -/

/-- An index is in point t's block iff each coordinate is in the block's range on its axis. -/
theorem mem_blk (t : Fin cfg0.N) (i : S1x1024x1024x128.Idx) :
    i ∈ ((cfg0.win 12).blk t).view.set ↔ ∀ a : Fin 4, win0_12.index t a * S1x8x1024x128.size a ≤ (i a).val
      ∧ (i a).val < win0_12.index t a * S1x8x1024x128.size a + S1x8x1024x128.size a := by
  show i ∈ ((View.whole main_v20).slice (win0_12.rect t)).set ↔ _
  rw [View.set_slice_whole, Rect.mem_set_unit]
  exact Iff.rfl

/-- Every index of the result is in the block of the point its row falls in. -/
theorem cover (i : S1x1024x1024x128.Idx) :
    ∃ t : Fin cfg0.N, (cfg0.win 12).flush t = true ∧ i ∈ ((cfg0.win 12).blk t).view.set := by
  have hi0 : (i 0).val < 1 := (i 0).isLt
  have hi1 : (i 1).val < 1024 := (i 1).isLt
  have hi2 : (i 2).val < 1024 := (i 2).isLt
  have hi3 : (i 3).val < 128 := (i 3).isLt
  have hN : (i 1).val / 8 < cfg0.N := by
    show (i 1).val / 8 < grid0.N
    rw [N_0]
    omega
  refine ⟨⟨(i 1).val / 8, hN⟩, flush0_12 _, ?_⟩
  obtain ⟨-, -, -, -, -, -, -, -, -, -, -, -, g0, g1', g2, g3⟩ := idx_facts ⟨(i 1).val / 8, hN⟩
  have g1 : win0_12.index ⟨(i 1).val / 8, hN⟩ (1 : Fin 4) = (i 1).val / 8 := g1'
  clear g1'
  rw [mem_blk]
  intro a
  match a with
  | ⟨0, _⟩ =>
    show win0_12.index ⟨(i 1).val / 8, hN⟩ (0 : Fin 4) * 1 ≤ (i 0).val
      ∧ (i 0).val < win0_12.index ⟨(i 1).val / 8, hN⟩ (0 : Fin 4) * 1 + 1
    omega
  | ⟨1, _⟩ =>
    show win0_12.index ⟨(i 1).val / 8, hN⟩ (1 : Fin 4) * 8 ≤ (i 1).val
      ∧ (i 1).val < win0_12.index ⟨(i 1).val / 8, hN⟩ (1 : Fin 4) * 8 + 8
    omega
  | ⟨2, _⟩ =>
    show win0_12.index ⟨(i 1).val / 8, hN⟩ (2 : Fin 4) * 1024 ≤ (i 2).val
      ∧ (i 2).val < win0_12.index ⟨(i 1).val / 8, hN⟩ (2 : Fin 4) * 1024 + 1024
    omega
  | ⟨3, _⟩ =>
    show win0_12.index ⟨(i 1).val / 8, hN⟩ (3 : Fin 4) * 128 ≤ (i 3).val
      ∧ (i 3).val < win0_12.index ⟨(i 1).val / 8, hN⟩ (3 : Fin 4) * 128 + 128
    omega

/-- THE RESULT ARRAY after the run is the encoding of the argument arrays. -/
theorem final (c : Dev nD) : (dats m 0 c).arrAt 12 cfg0.N = result m c :=
  (dats m 0 c).arrAt_eq_of_cover 12 (result m c) (fun t _ => flushed_eq m c t) cover

/-- The kernel's run: every weakly fair execution ends with the result array at the encoding of the arguments and the
    arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Bridge

end
-- ==== Proof.RefValue.lean ====
/-
  The reference computes the same encoding.

  The reference builds the 72-entry feature row of every pair — the indicator of the offset bin (65 entries), the entity
  flag (1 entry), the indicator of the copy bin (6 entries), laid end to end — contracts it with the 72 rows of the weight
  matrix and adds the bias.  Read at (0, i, j, c): the sum over the 72 rows splits into the first 65, row 65 and the last
  6 (`sum72_split`), each part reads its own piece of the feature row, and the three parts are the three terms of
  `entryOf`.  The bins and the flag are computed by the same integer operations as in the kernel (subtract, shift,
  clamp by maximum and minimum, select), on the same entries of the identifier rows.
-/
import proofs.«131732_j7567732376211_1_alg».proof.Proof.Gen.ReferenceIdeal.Read
import proofs.«131732_j7567732376211_1_alg».proof.Proof.Spec
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Cert.RelPos

variable (x0 x1 x2 x3 : (⟨S1x1024, .i32⟩ : BufTy).Contents (Elt Ideal))

/-- The pair's index into the 1 × 1024 × 1024 arrays of bins. -/
abbrev pairIdx (i j : Fin 1024) : S1x1024x1024.Idx := ix3 0 i j

/-- The offset bin of pair (i, j), as the reference computes it. -/
theorem v13_apply (i j : Fin 1024) :
    val_main_v13 (F := Ideal) x0 x1 (pairIdx i j)
      = posBin (x0 (ix2 0 i)) (x0 (ix2 0 j)) (x1 (ix2 0 i)) (x1 (ix2 0 j)) := by
  have ea : idx_main_v0 (idx_main_v2 (pairIdx i j)) = ix2 0 i := funext fun a => Fin.ext (by
    match a with
    | ⟨0, _⟩ => rfl
    | ⟨1, _⟩ => rfl)
  have eb : idx_main_v1 (idx_main_v3 (pairIdx i j)) = ix2 0 j := funext fun a => Fin.ext (by
    match a with
    | ⟨0, _⟩ => rfl
    | ⟨1, _⟩ => rfl)
  have ec : idx_main_v5 (idx_main_v7 (pairIdx i j)) = ix2 0 i := funext fun a => Fin.ext (by
    match a with
    | ⟨0, _⟩ => rfl
    | ⟨1, _⟩ => rfl)
  have ed : idx_main_v6 (idx_main_v8 (pairIdx i j)) = ix2 0 j := funext fun a => Fin.ext (by
    match a with
    | ⟨0, _⟩ => rfl
    | ⟨1, _⟩ => rfl)
  rw [val_main_v13_apply, val_main_v4_apply, val_main_v2_apply, val_main_v0_apply, val_main_v3_apply, val_main_v1_apply,
    val_main_v12_apply, val_main_call0_v4_apply, val_main_call0_v3_apply, val_main_c_1_apply,
    val_main_call0_v2_apply, val_main_call0_v1_apply, val_main_call0_v0_apply, val_main_c_0_apply,
    val_main_v11_apply, val_main_v9_apply, val_main_v7_apply, val_main_v5_apply, val_main_v8_apply, val_main_v6_apply,
    val_main_v10_apply, val_main_c_apply, val_main_call1_v1_apply, val_main_call1_v0_apply, val_main_c_2_apply,
    ea, eb, ec, ed]
  rfl

/-- The entity flag of pair (i, j), as the reference computes it. -/
theorem v19_apply (i j : Fin 1024) :
    val_main_v19 (F := Ideal) x3 (pairIdx i j) = IntOp.cmpi .eq (x3 (ix2 0 i)) (x3 (ix2 0 j)) := by
  have ea : idx_main_v15 (idx_main_v17 (pairIdx i j)) = ix2 0 i := funext fun a => Fin.ext (by
    match a with
    | ⟨0, _⟩ => rfl
    | ⟨1, _⟩ => rfl)
  have eb : idx_main_v16 (idx_main_v18 (pairIdx i j)) = ix2 0 j := funext fun a => Fin.ext (by
    match a with
    | ⟨0, _⟩ => rfl
    | ⟨1, _⟩ => rfl)
  rw [val_main_v19_apply, val_main_v17_apply, val_main_v15_apply, val_main_v18_apply, val_main_v16_apply, ea, eb]

/-- The copy bin of pair (i, j), as the reference computes it. -/
theorem v30_apply (i j : Fin 1024) :
    val_main_v30 (F := Ideal) x2 x3 (pairIdx i j)
      = chainBin (x2 (ix2 0 i)) (x2 (ix2 0 j)) (x3 (ix2 0 i)) (x3 (ix2 0 j)) := by
  have ec : idx_main_v22 (idx_main_v24 (pairIdx i j)) = ix2 0 i := funext fun a => Fin.ext (by
    match a with
    | ⟨0, _⟩ => rfl
    | ⟨1, _⟩ => rfl)
  have ed : idx_main_v23 (idx_main_v25 (pairIdx i j)) = ix2 0 j := funext fun a => Fin.ext (by
    match a with
    | ⟨0, _⟩ => rfl
    | ⟨1, _⟩ => rfl)
  rw [val_main_v30_apply, v19_apply,
    val_main_v29_apply, val_main_call3_v4_apply, val_main_call3_v3_apply, val_main_c_5_apply,
    val_main_call3_v2_apply, val_main_call3_v1_apply, val_main_call3_v0_apply, val_main_c_4_apply,
    val_main_v28_apply, val_main_v26_apply, val_main_v24_apply, val_main_v22_apply, val_main_v25_apply, val_main_v23_apply,
    val_main_v27_apply, val_main_c_3_apply, val_main_call4_v1_apply, val_main_call4_v0_apply, val_main_c_6_apply,
    ec, ed]
  rfl

/-! ## The feature row, piece by piece -/

/-- Entries 0 … 64 of the feature row of pair (i, j): the indicator of its offset bin. -/
theorem feat_pos (i j : Fin 1024) (k : Fin 65) (z : Fin 1) (k72 : Fin 72) (hk : k72.val = k.val) :
    val_main_v32 (F := Ideal) x0 x1 x2 x3 (ix4 z i j k72)
      = ind (IntOp.cmpi .eq (posBin (x0 (ix2 0 i)) (x0 (ix2 0 j)) (x1 (ix2 0 i)) (x1 (ix2 0 j))) (BitVec.ofNat 32 k.val)) := by
  unfold val_main_v32
  refine (concatenate_apply_piece (t := S1x1024x1024x72) (3 : Fin S1x1024x1024x72.rank) [⟨S1x1024x1024x65, val_main_v14 (F := Ideal) x0 x1⟩, ⟨S1x1024x1024x1, val_main_v21 (F := Ideal) x3⟩, ⟨S1x1024x1024x6, val_main_v31 (F := Ideal) x2 x3⟩]
    concatenates_S1x1024x1024x65_S1x1024x1024x1_S1x1024x1024x6_S1x1024x1024x72_d3
    (ix4 z i j k72) 0 (by show (0 : Nat) < 3; omega) S1x1024x1024x65 (val_main_v14 (F := Ideal) x0 x1) rfl rfl 0 rfl (ix4 0 i j k) ?_ ?_).trans ?_
  · intro b hb
    match b with
    | ⟨0, _⟩ => have hz : z.val < 1 := z.isLt; show 0 = z.val; omega
    | ⟨1, _⟩ => rfl
    | ⟨2, _⟩ => rfl
    | ⟨3, _⟩ => exact absurd rfl hb
  · show 0 + k.val = k72.val
    omega
  · have e0 : idx_main_call2_v0 (idx_main_call2_v2 (ix4 0 i j k)) = pairIdx i j := funext fun a => Fin.ext (by
      match a with
      | ⟨0, _⟩ => rfl
      | ⟨1, _⟩ => rfl
      | ⟨2, _⟩ => rfl)
    rw [val_main_v14_apply, val_main_call2_v4_apply, val_main_call2_v2_apply, val_main_call2_v0_apply, e0, v13_apply,
      val_main_call2_v3_apply, val_main_call2_v1_apply]
    rfl

/-- Entry 65 of the feature row of pair (i, j): its entity flag. -/
theorem feat_ent (i j : Fin 1024) (z : Fin 1) (k72 : Fin 72) (hk : k72.val = 65) :
    val_main_v32 (F := Ideal) x0 x1 x2 x3 (ix4 z i j k72) = ind (IntOp.cmpi .eq (x3 (ix2 0 i)) (x3 (ix2 0 j))) := by
  unfold val_main_v32
  refine (concatenate_apply_piece (t := S1x1024x1024x72) (3 : Fin S1x1024x1024x72.rank) [⟨S1x1024x1024x65, val_main_v14 (F := Ideal) x0 x1⟩, ⟨S1x1024x1024x1, val_main_v21 (F := Ideal) x3⟩, ⟨S1x1024x1024x6, val_main_v31 (F := Ideal) x2 x3⟩]
    concatenates_S1x1024x1024x65_S1x1024x1024x1_S1x1024x1024x6_S1x1024x1024x72_d3
    (ix4 z i j k72) 1 (by show (1 : Nat) < 3; omega) S1x1024x1024x1 (val_main_v21 (F := Ideal) x3) rfl rfl 65 rfl (ix4 0 i j 0) ?_ ?_).trans ?_
  · intro b hb
    match b with
    | ⟨0, _⟩ => have hz : z.val < 1 := z.isLt; show 0 = z.val; omega
    | ⟨1, _⟩ => rfl
    | ⟨2, _⟩ => rfl
    | ⟨3, _⟩ => exact absurd rfl hb
  · show 65 + 0 = k72.val
    omega
  · have e0 : idx_main_v21 (ix4 0 i j 0) = pairIdx i j := funext fun a => Fin.ext (by
      match a with
      | ⟨0, _⟩ => rfl
      | ⟨1, _⟩ => rfl
      | ⟨2, _⟩ => rfl)
    rw [val_main_v21_apply, val_main_v20_apply, e0, v19_apply]
    rfl

/-- Entries 66 … 71 of the feature row of pair (i, j): the indicator of its copy bin. -/
theorem feat_chain (i j : Fin 1024) (k : Fin 6) (z : Fin 1) (k72 : Fin 72) (hk : k72.val = 66 + k.val) :
    val_main_v32 (F := Ideal) x0 x1 x2 x3 (ix4 z i j k72)
      = ind (IntOp.cmpi .eq (chainBin (x2 (ix2 0 i)) (x2 (ix2 0 j)) (x3 (ix2 0 i)) (x3 (ix2 0 j))) (BitVec.ofNat 32 k.val)) := by
  unfold val_main_v32
  refine (concatenate_apply_piece (t := S1x1024x1024x72) (3 : Fin S1x1024x1024x72.rank) [⟨S1x1024x1024x65, val_main_v14 (F := Ideal) x0 x1⟩, ⟨S1x1024x1024x1, val_main_v21 (F := Ideal) x3⟩, ⟨S1x1024x1024x6, val_main_v31 (F := Ideal) x2 x3⟩]
    concatenates_S1x1024x1024x65_S1x1024x1024x1_S1x1024x1024x6_S1x1024x1024x72_d3
    (ix4 z i j k72) 2 (by show (2 : Nat) < 3; omega) S1x1024x1024x6 (val_main_v31 (F := Ideal) x2 x3) rfl rfl 66 rfl (ix4 0 i j k) ?_ ?_).trans ?_
  · intro b hb
    match b with
    | ⟨0, _⟩ => have hz : z.val < 1 := z.isLt; show 0 = z.val; omega
    | ⟨1, _⟩ => rfl
    | ⟨2, _⟩ => rfl
    | ⟨3, _⟩ => exact absurd rfl hb
  · show 66 + k.val = k72.val
    omega
  · have e0 : idx_main_call5_v0 (idx_main_call5_v2 (ix4 0 i j k)) = pairIdx i j := funext fun a => Fin.ext (by
      match a with
      | ⟨0, _⟩ => rfl
      | ⟨1, _⟩ => rfl
      | ⟨2, _⟩ => rfl)
    rw [val_main_v31_apply, val_main_call5_v4_apply, val_main_call5_v2_apply, val_main_call5_v0_apply, e0, v30_apply,
      val_main_call5_v3_apply, val_main_call5_v1_apply]
    rfl

/-! ## The reference's result is the encoding -/

/-- THE REFERENCE'S RESULT, index by index, is the encoding `G` of its arguments. -/
theorem result_eq (x4 : (⟨S72x128, .f32⟩ : BufTy).Contents (Elt Ideal)) (x5 : (⟨S128, .f32⟩ : BufTy).Contents (Elt Ideal)) :
    val_main_v36 (F := Ideal) x0 x1 x2 x3 x4 x5 = G x0 x1 x2 x3 x4 x5 := by
  funext y
  have hy0 : (y 0).val < 1 := (y 0).isLt
  have hy1 : (y 1).val < 1024 := (y 1).isLt
  have hy2 : (y 2).val < 1024 := (y 2).isLt
  have hy3 : (y 3).val < 128 := (y 3).isLt
  have el : ∀ k : Fin 72, lidx_main_v33 y k = ix4 ⟨(y 0).val, hy0⟩ ⟨(y 1).val, hy1⟩ ⟨(y 2).val, hy2⟩ k := fun k =>
    funext fun a => Fin.ext (by
      match a with
      | ⟨0, _⟩ => rfl
      | ⟨1, _⟩ => rfl
      | ⟨2, _⟩ => rfl
      | ⟨3, _⟩ => rfl)
  have er : ∀ k : Fin 72, ridx_main_v33 y k = ix2 k ⟨(y 3).val, hy3⟩ := fun k =>
    funext fun a => Fin.ext (by
      match a with
      | ⟨0, _⟩ => rfl
      | ⟨1, _⟩ => rfl)
  have eb : idx_main_v34 (idx_main_v35 y) = ix1 ⟨(y 3).val, hy3⟩ := funext fun a => Fin.ext (by
    match a with
    | ⟨0, _⟩ => rfl)
  rw [val_main_v36_apply, val_main_v33_apply, val_main_v35_apply, val_main_v34_apply, eb, sum72_split]
  show ((∑ k : Fin 65, _ * _ + ∑ k : Fin 6, _ * _) + _ * _) + _ = _
  unfold G entryOf
  refine congrArg₂ (· + ·) (congrArg₂ (· + ·) (congrArg₂ (· + ·) ?_ ?_) ?_) rfl
  · refine Finset.sum_congr rfl fun k _ => ?_
    rw [el, er, feat_pos x0 x1 x2 x3 _ _ k _ _ rfl]
  · refine Finset.sum_congr rfl fun k _ => ?_
    rw [el, er, feat_chain x0 x1 x2 x3 _ _ k _ _ rfl]
  · rw [el, er, feat_ent x0 x1 x2 x3 _ _ _ _ rfl]

end Cert.ReferenceIdeal.RefValue

end
-- ==== Proof.lean ====
/-
  The relative-position encoder: a blocked kernel against its reference, over the extended reals.

  Both programs take four rows of 1024 integer identifiers (residue index, chain, copy, entity), a 72 × 128 weight
  matrix W and a bias b, and produce for every pair (i, j) and column c

      sum over the 65 offset bins k of [offset bin of (i, j) = k] · W k c
    + sum over the 6 copy bins k of [copy bin of (i, j) = k] · W (66 + k) c
    + [entities of i and j agree] · W 65 c  +  b c.

  The reference lays the three indicator pieces end to end as one 72-entry feature row and contracts it with W in one
  product.  The kernel never builds that row: per block of 8 rows i it multiplies the 65-wide and the 6-wide indicator
  matrices by the matching row blocks of W (rounded to a shorter float format on the way, which is the identity on
  extended reals), adds the flag times row 65, and adds the bias.  The two results are the same sum of 72 products
  grouped differently; addition of extended reals is commutative and associative, so they are equal whatever the
  weights are, and the precondition (finite weights) is not used.  The integer bins are computed by the same wrapping
  subtract, shift, clamp and select on both sides.

  Modules: Spec (the encoding `G` and the split of a 72-term sum), Payload and Body (the kernel body's block, entry by
  entry), Arrays (what the host lays out for the windows), Blocks (the 128 blocks tile the result: the kernel's run),
  RefValue (the reference's run is `G`).  The frames are the generated ones; the idealization rewrote nothing.
-/
import proofs.«131732_j7567732376211_1_alg».proof.Defs
import proofs.«131732_j7567732376211_1_alg».proof.Proof.Gen.Kernel
import proofs.«131732_j7567732376211_1_alg».proof.Proof.Gen.Kernel.Skeleton
import proofs.«131732_j7567732376211_1_alg».proof.Proof.Gen.Kernel.Launch
import proofs.«131732_j7567732376211_1_alg».proof.Proof.Gen.Kernel.Points
import proofs.«131732_j7567732376211_1_alg».proof.Proof.Gen.Kernel.Frame
import proofs.«131732_j7567732376211_1_alg».proof.Proof.Gen.KernelIdeal
import proofs.«131732_j7567732376211_1_alg».proof.Proof.Gen.KernelIdeal.Skeleton
import proofs.«131732_j7567732376211_1_alg».proof.Proof.Gen.KernelIdeal.Launch
import proofs.«131732_j7567732376211_1_alg».proof.Proof.Gen.KernelIdeal.Points
import proofs.«131732_j7567732376211_1_alg».proof.Proof.Gen.KernelIdeal.Frame
import proofs.«131732_j7567732376211_1_alg».proof.Proof.Gen.ReferenceIdeal
import proofs.«131732_j7567732376211_1_alg».proof.Proof.Gen.Pre_finite_inputs
import proofs.«131732_j7567732376211_1_alg».proof.Proof.Gen.KernelIdeal.Value
import proofs.«131732_j7567732376211_1_alg».proof.Proof.Gen.ReferenceIdeal.Run
import proofs.«131732_j7567732376211_1_alg».proof.Proof.Gen.ReferenceIdeal.Read
import proofs.«131732_j7567732376211_1_alg».proof.Proof.Blocks
import proofs.«131732_j7567732376211_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the encoding of those arguments. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  refine (Cert.ReferenceIdeal.Read.val_main_v36_eq _ _ _ _ _ _).trans
    ((Cert.ReferenceIdeal.RefValue.result_eq _ _ _ _ _ _).trans ?_)
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
